-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128x128 .f32) (main_arg7 : FVec F S128x128 .f32) (main_arg8 : FVec F S128 .f32) (main_arg9 : FVec F S128x2 .f32) (main_arg10 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x4 .f32) (main_arg1 : IVec S1600000 32) (main_arg2 : IVec S1600000 32) (main_arg3 : FVec F S4x128 .f32) (main_arg4 : FVec F S4x128 .f32) (main_arg5 : FVec F S128 .f32) (main_arg6 : FVec F S128x128 .f32) (main_arg7 : FVec F S128x128 .f32) (main_arg8 : FVec F S128 .f32) (main_arg9 : FVec F S128x2 .f32) (main_arg10 : FVec F S2 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x4 : Shape := ⟨2, ![1600000, 4]⟩
abbrev S1x128 : Shape := ⟨2, ![1, 128]⟩
abbrev S100000x128 : Shape := ⟨2, ![100000, 128]⟩
abbrev S4000x4 : Shape := ⟨2, ![4000, 4]⟩
abbrev S4000x1 : Shape := ⟨2, ![4000, 1]⟩
abbrev S4000x128 : Shape := ⟨2, ![4000, 128]⟩
abbrev S1600000x128 : Shape := ⟨2, ![1600000, 128]⟩
abbrev S1x2 : Shape := ⟨2, ![1, 2]⟩
abbrev S100000x2 : Shape := ⟨2, ![100000, 2]⟩
abbrev S4000x2 : Shape := ⟨2, ![4000, 2]⟩

abbrev nBuf : Space → Nat
  | .hbm => 56
  | .vmem => 24
  | .smem => 0
  | _ => 0

abbrev bufTy : (tb : Table) → Fin (tcTables nBuf tb) → BufTy
  | .hbm, ⟨0, _⟩ => ⟨S100000x4, .f32⟩
  | .hbm, ⟨1, _⟩ => ⟨S1600000, .i32⟩
  | .hbm, ⟨2, _⟩ => ⟨S1600000, .i32⟩
  | .hbm, ⟨3, _⟩ => ⟨S4x128, .f32⟩
  | .hbm, ⟨4, _⟩ => ⟨S4x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x4, .f32⟩
  | .hbm, ⟨33, _⟩ => ⟨S_, .f32⟩
  | .hbm, ⟨34, _⟩ => ⟨S100000x4, .f32⟩
  | .hbm, ⟨35, _⟩ => ⟨S1600000x1, .i32⟩
  | .hbm, ⟨36, _⟩ => ⟨S100000x4, .f32⟩
  | .hbm, ⟨37, _⟩ => ⟨S1x128, .f32⟩
  | .hbm, ⟨38, _⟩ => ⟨S100000x128, .bf16⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .bf16⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S1x2, .f32⟩
  | .hbm, ⟨55, _⟩ => ⟨S100000x2, .f32⟩
  | .local _ .vmem, ⟨0, _⟩ => ⟨S4000x4, .f32⟩
  | .local _ .vmem, ⟨1, _⟩ => ⟨S4000x4, .f32⟩
  | .local _ .vmem, ⟨2, _⟩ => ⟨S4000x4, .f32⟩
  | .local _ .vmem, ⟨3, _⟩ => ⟨S4000x4, .f32⟩
  | .local _ .vmem, ⟨4, _⟩ => ⟨S4000x1, .f32⟩
  | .local _ .vmem, ⟨5, _⟩ => ⟨S4000x1, .f32⟩
  | .local _ .vmem, ⟨6, _⟩ => ⟨S4x128, .f32⟩
  | .local _ .vmem, ⟨7, _⟩ => ⟨S4x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x2, .f32⟩
  | .local _ .vmem, ⟨21, _⟩ => ⟨S1x2, .f32⟩
  | .local _ .vmem, ⟨22, _⟩ => ⟨S4000x2, .f32⟩
  | .local _ .vmem, ⟨23, _⟩ => ⟨S4000x2, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_c : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x4 : S_.BroadcastsInDim S100000x4 (![] : Fin 0 → Fin S100000x4.rank)
  shapeCasts_S128_S1x128 : S128.ShapeCasts S1x128
  inb_S4000x4_S4000x4_0_0 : ∀ a, (![0, 0] : Fin 2 → Nat) a + S4000x4.size a ≤ S4000x4.size a
  h_S4000x4 : 0 < S4000x4.numel
  bitsLt_bf16_f32 : FTy.bits .bf16 < FTy.bits .f32
  shapeCasts_S4000x4_S4000x4 : S4000x4.ShapeCasts S4000x4
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x4 : S4000x1.Broadcasts S4000x4
  inb_S4x128_S4x128_0_0 : ∀ a, (![0, 0] : Fin 2 → Nat) a + S4x128.size a ≤ S4x128.size a
  h_S4x128 : 0 < S4x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S2_S1x2 : S2.ShapeCasts S1x2
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  inb_S4000x2_S4000x2_0_0 : ∀ a, (![0, 0] : Fin 2 → Nat) a + S4000x2.size a ≤ S4000x2.size a
  h_S4000x2 : 0 < S4000x2.numel
  scatter_S100000_S1600000x1_S1600000_n_0_0_1_wf : ScatterDims.WF S100000 S1600000x1 S1600000 [] [0] [0] 1
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  dot_S4000x4_S4x128_S4000x128_1_0_0_1_n_n_wf : DotDims.WF S4000x4 S4x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x2_S4000x2_1_0_0_1_n_n_wf : DotDims.WF S4000x128 S128x2 S4000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x4.size a ≤ S100000x4.size a
  hwx0_0 : ∀ i : grid0.Coords, EltTy.bits .f32 = 32 ∨ (Rect.block (s := S100000x4) S4000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S100000x4.size a
  hwx0_1 : ∀ i : grid0.Coords, EltTy.bits .f32 = 32 ∨ (Rect.block (s := S100000x4) S4000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x128.size a ≤ S4x128.size a
  hwx0_3 : ∀ i : grid0.Coords, EltTy.bits .f32 = 32 ∨ (Rect.block (s := S4x128) S4x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128.size a ≤ S4x128.size a
  hwx0_4 : ∀ i : grid0.Coords, EltTy.bits .f32 = 32 ∨ (Rect.block (s := S4x128) S4x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2.size a ≤ S1x2.size a
  hwx1_7 : ∀ i : grid1.Coords, EltTy.bits .f32 = 32 ∨ (Rect.block (s := S1x2) S1x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x2.size a ≤ S100000x2.size a
  hwx1_8 : ∀ i : grid1.Coords, EltTy.bits .f32 = 32 ∨ (Rect.block (s := S100000x2) S4000x2.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x2_S4000x2_1_0_0_1_n_n : DotDims S4000x128 S128x2 S4000x2 where
  lhsContracting := [1]
  rhsContracting := [0]
  lhsNonContracting := [0]
  rhsNonContracting := [1]
  lhsBatch := []
  rhsBatch := []
  wf := dot_S4000x128_S128x2_S4000x2_1_0_0_1_n_n_wf

abbrev win0_0 : Pipeline.Window sig grid0 :=
  Pipeline.Window.ofSpec (Memref.whole main_arg0) S4000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v20) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S1x2.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v34) S4000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x4 : Shape := ⟨2, ![100000, 4]⟩
abbrev S1600000 : Shape := ⟨1, ![1600000]⟩
abbrev S4x128 : Shape := ⟨2, ![4, 128]⟩
abbrev S128 : Shape := ⟨1, ![128]⟩
abbrev S128x128 : Shape := ⟨2, ![128, 128]⟩
abbrev S128x2 : Shape := ⟨2, ![128, 2]⟩
abbrev S2 : Shape := ⟨1, ![2]⟩
abbrev S_ : Shape := ⟨0, ![]⟩
abbrev S1600000x1 : Shape := ⟨2, ![1600000, 1]⟩
abbrev S1600000x4 : Shape := ⟨2, ![1600000, 4]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S100000x2 : Shape := ⟨2, ![100000, 2]⟩
abbrev S1x2 : Shape := ⟨2, ![1, 2]⟩

abbrev nBuf : Space → Nat
  | .hbm => 83
  | .vmem => 0
  | .smem => 0
  | _ => 0

abbrev bufTy : (tb : Table) → Fin (tcTables nBuf tb) → BufTy
  | .hbm, ⟨0, _⟩ => ⟨S100000x4, .f32⟩
  | .hbm, ⟨1, _⟩ => ⟨S1600000, .i32⟩
  | .hbm, ⟨2, _⟩ => ⟨S1600000, .i32⟩
  | .hbm, ⟨3, _⟩ => ⟨S4x128, .f32⟩
  | .hbm, ⟨4, _⟩ => ⟨S4x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x4, .f32⟩
  | .hbm, ⟨20, _⟩ => ⟨S_, .f32⟩
  | .hbm, ⟨21, _⟩ => ⟨S100000x4, .f32⟩
  | .hbm, ⟨22, _⟩ => ⟨S1600000x1, .i32⟩
  | .hbm, ⟨23, _⟩ => ⟨S100000x4, .f32⟩
  | .hbm, ⟨24, _⟩ => ⟨S_, .f32⟩
  | .hbm, ⟨25, _⟩ => ⟨S1600000, .f32⟩
  | .hbm, ⟨26, _⟩ => ⟨S_, .f32⟩
  | .hbm, ⟨27, _⟩ => ⟨S100000, .f32⟩
  | .hbm, ⟨28, _⟩ => ⟨S1600000x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S100000x4, .f32⟩
  | .hbm, ⟨35, _⟩ => ⟨S100000x4, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S_, .f32⟩
  | .hbm, ⟨59, _⟩ => ⟨S1600000, .f32⟩
  | .hbm, ⟨60, _⟩ => ⟨S_, .f32⟩
  | .hbm, ⟨61, _⟩ => ⟨S100000, .f32⟩
  | .hbm, ⟨62, _⟩ => ⟨S1600000x1, .i32⟩
  | .hbm, ⟨63, _⟩ => ⟨S100000, .f32⟩
  | .hbm, ⟨64, _⟩ => ⟨S_, .f32⟩
  | .hbm, ⟨65, _⟩ => ⟨S100000, .f32⟩
  | .hbm, ⟨66, _⟩ => ⟨S100000, .f32⟩
  | .hbm, ⟨67, _⟩ => ⟨S100000x1, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x2, .f32⟩
  | .hbm, ⟨80, _⟩ => ⟨S1x2, .f32⟩
  | .hbm, ⟨81, _⟩ => ⟨S100000x2, .f32⟩
  | .hbm, ⟨82, _⟩ => ⟨S100000x2, .f32⟩
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_cst : Ref sig .tc := ⟨.hbm, 42, rfl⟩
abbrev main_call0_v0 : Ref sig .tc := ⟨.hbm, 43, rfl⟩
abbrev main_v25 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_7 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_9 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call1_cst : Ref sig .tc := ⟨.hbm, 76, rfl⟩
abbrev main_call1_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x4 : S_.BroadcastsInDim S100000x4 (![] : Fin 0 → Fin S100000x4.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x4_0_1 : S100000x1.BroadcastsInDim S100000x4 (![0, 1] : Fin 2 → Fin S100000x4.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  gather_S100000x4_S1600000x1_S1600000x4_1_0_n_n_0_1_14_wf : GatherDims.WF S100000x4 S1600000x1 S1600000x4 [1] [0] [] [0] [] 1 ![1, 4]
  scatter_S100000x4_S1600000x1_S1600000x4_1_0_0_1_wf : ScatterDims.WF S100000x4 S1600000x1 S1600000x4 [1] [0] [0] 1
  scatter_S100000_S1600000x1_S1600000_n_0_0_1_wf : ScatterDims.WF S100000 S1600000x1 S1600000 [] [0] [0] 1
  dot_S100000x4_S4x128_S100000x128_1_0_0_1_n_n_wf : DotDims.WF S100000x4 S4x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x2_S100000x2_1_0_0_1_n_n_wf : DotDims.WF S100000x128 S128x2 S100000x2 [1] [0] [0] [1] [] []

variable [Facts₀]

def gather_S100000x4_S1600000x1_S1600000x4_1_0_n_n_0_1_14 : GatherDims S100000x4 S1600000x1 S1600000x4 where
  offsetDims := [1]
  collapsedSliceDims := [0]
  operandBatchingDims := []
  startIndicesBatchingDims := []
  startIndexMap := [0]
  indexVectorDim := 1
  sliceSizes := ![1, 4]
  wf := gather_S100000x4_S1600000x1_S1600000x4_1_0_n_n_0_1_14_wf
def scatter_S100000x4_S1600000x1_S1600000x4_1_0_0_1 : ScatterDims S100000x4 S1600000x1 S1600000x4 where
  updateWindowDims := [1]
  insertedWindowDims := [0]
  scatterDimsToOperandDims := [0]
  indexVectorDim := 1
  wf := scatter_S100000x4_S1600000x1_S1600000x4_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf

class Facts : Prop extends Facts₀ where

variable [Facts]
-- ==== Proof.SageRun.lean ====
/-
  The kernel's program run, with its result buffer named.

  The program is four segments: host operations, the first pallas_call, host operations, the second pallas_call.  The
  buffer contents at the segment boundaries are a fold from the launch memory: a stretch of host operations applies
  its operations' results, a pallas_call leaves each of its arrays at what its write-backs leave and every other
  buffer as it was.  Every weakly fair execution terminates, nothing faulting, with every buffer at the last
  boundary's contents; read here at the result buffer (the second pallas_call's output array) and at the eleven
  arguments, which no segment writes.
-/
import proofs.«118429_j11905649344801_2_alg».proof.Proof.Gen.KernelIdeal.Frame

set_option maxRecDepth 16384

noncomputable section

namespace Cert.KernelIdeal.SageValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result buffer ends at the last
    boundary's contents and the arguments end as launched. -/
theorem run_fold : θ_run defs (onTc (τ := τ) (main (F := F))) ⟨m, fun _ => 0, ρ⟩ (fun r => ∀ c : Dev nD,
      r.2.mem ((c.tc : Thread nD τ).loc main_v34) = W4 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v34 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.SageValue

end
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«118429_j11905649344801_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibPlainDot.lean ====
/-
  THE PLAIN MATRIX PRODUCT'S DIMENSION RECORD, AND THE DENSE LAYER OVER IT, at the ideal values.

  An `[R, K]` array times a `[K, N]` array contracts the first's columns with the second's rows.  Its dimension record is
  `DotDims.plain R K N`; a printed program's record with the same six lists (contract axis 1 with axis 0, keep axis 0
  and axis 1, no batch axes) is that record by unfolding.  Proved here once for every `R`, `K`, `N`:
  • there is one contracted axis, of extent `K` (`rank_contr`, `size_contr`);
  • at the output index `(p, c)` and contraction position `k` the left operand is read at `(p, k)` and the right operand
    at `(k, c)` (`lhs_at`, `rhs_at`).
  These are the four facts LibDenseRow's dense layer asks of a record, so its two spellings are restated for the plain
  record with nothing left to supply (`klayer`: matrix product into a zero accumulator plus a bias vector cast to one row
  and broadcast; `hlayer`: `dot_general` plus the bias broadcast to one row and then over the rows).  Both are
  `j ↦ (∑ k, x k · w k j) + b j` on every row.  No algebra of the extended reals is used.
-/
import proofs.«118429_j11905649344801_2_alg».proof.Proof.LibDenseRow

noncomputable section

open scoped BigOperators

namespace Cert.PlainDot

open Idealize.ShloMosaic Idealize.ShloMosaic.ValueIdx Cert.DenseRow

variable (R K N : ℕ)

/-- One axis is contracted. -/
theorem rank_contr : (DotDims.plain R K N).contr.rank = 1 := rfl

/-- Its extent is the shared extent `K`. -/
theorem size_contr : (DotDims.plain R K N).contr.size ⟨0, Nat.one_pos⟩ = K := rfl

/-- The left operand's index at output `(p, c)`, contraction position `k`: row `p`, column `k`. -/
theorem lhs_at (p : Fin R) (c : Fin N) (k : Fin K) :
    (DotDims.plain R K N).lhsIdx (ix2 p c) ((contrEquiv1 (DotDims.plain R K N) K rfl rfl).symm k) = ix2 p k := by
  have hk := contrEquiv1_symm_val (DotDims.plain R K N) K rfl rfl k
  funext a
  apply Fin.ext
  match a with
  | ⟨0, _⟩ =>
    show ((DotDims.plain R K N).lhsIdx (ix2 p c) ((contrEquiv1 (DotDims.plain R K N) K rfl rfl).symm k) 0).val = p.val
    unfold DotDims.lhsIdx
    rw [dif_neg (show ¬ (0 : Fin 2) ∈ (DotDims.plain R K N).lhsBatch from List.not_mem_nil),
      dif_pos (show (0 : Fin 2) ∈ (DotDims.plain R K N).lhsNonContracting from List.mem_singleton.mpr rfl)]
    rfl
  | ⟨1, _⟩ => exact ((DotDims.plain R K N).lhsIdx_val_of_single rfl (ix2 p c) _).trans hk

/-- The right operand's index at output `(p, c)`, contraction position `k`: row `k`, column `c`. -/
theorem rhs_at (p : Fin R) (c : Fin N) (k : Fin K) :
    (DotDims.plain R K N).rhsIdx (ix2 p c) ((contrEquiv1 (DotDims.plain R K N) K rfl rfl).symm k) = ix2 k c := by
  have hk := contrEquiv1_symm_val (DotDims.plain R K N) K rfl rfl k
  funext a
  apply Fin.ext
  match a with
  | ⟨0, _⟩ => exact ((DotDims.plain R K N).rhsIdx_val_of_single rfl (ix2 p c) _).trans hk
  | ⟨1, _⟩ =>
    show ((DotDims.plain R K N).rhsIdx (ix2 p c) ((contrEquiv1 (DotDims.plain R K N) K rfl rfl).symm k) 1).val = c.val
    unfold DotDims.rhsIdx
    rw [dif_neg (show ¬ (1 : Fin 2) ∈ (DotDims.plain R K N).rhsBatch from List.not_mem_nil),
      dif_pos (show (1 : Fin 2) ∈ (DotDims.plain R K N).rhsNonContracting from List.mem_singleton.mpr rfl)]
    rfl

/-- The vector unit's dense layer over the plain record, as a whole array. -/
theorem klayer {φ₁ φ₂ : FTy} (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul (DotDims.plain R K N) prec a (shapeCast ⟨2, ![K, N]⟩ w hw) (constant ⟨2, ![R, N]⟩ .f32 0x00000000#32))
        (broadcastTo ⟨2, ![R, N]⟩ (shapeCast ⟨2, ![1, N]⟩ b hc) hb)
      = layerArr a w b :=
  klayerArr (DotDims.plain R K N) rfl rfl (lhs_at R K N) (rhs_at R K N) prec a w hw b hc hb

/-- The host's dense layer over the plain record, as a whole array. -/
theorem hlayer {φ₁ φ₂ : FTy} (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral (DotDims.plain R K N) prec a w)
        (broadcastInDim ⟨2, ![R, N]⟩ ![0, 1] h2 (broadcastInDim ⟨2, ![1, N]⟩ ![1] h1 b))
      = layerArr a w b :=
  hlayerArr (DotDims.plain R K N) rfl rfl (lhs_at R K N) (rhs_at R K N) prec a w b h1 h2

end Cert.PlainDot

end
-- ==== Proof.LibBlockDot.lean ====
/-
  A BLOCK OF ROWS OF A MATRIX PRODUCT, at the ideal values.

  The product of an `[R, K]` array `a` and a `[K, N]` array `w` has at `(p, c)` the entry `∑ k, a (p, k) · w (k, c)`:
  row `p` of the result depends on row `p` of `a` and on nothing else of it.  So when `a` is a block of rows of a taller
  array `A` (row `p` of `a` is row `off + p` of `A`), the product of the block is the same block of rows of the product of
  `A`: a product computed block of rows by block of rows is the product of the whole.  Two spellings of the product are
  read here over the plain dimension record `DotDims.plain` (contract the left operand's columns with the right
  operand's rows, no batch axes):
  • on the vector unit, the matrix product into a zero accumulator (`kdot_apply`);
  • on the host, `dot_general` (`hdot_apply`);
  both are the sum above, so a row of the first over a block is the row of the second over the whole array
  (`kdot_rows` by coordinates, `kdot_block` at indices given by their coordinates' values).  The sums are compared term
  by term in the same order: no algebra of the extended reals is used, and nothing needs to be finite.
-/
import proofs.«118429_j11905649344801_2_alg».proof.Proof.LibPlainDot

noncomputable section

open scoped BigOperators

namespace Cert.BlockDot

open Idealize.ShloMosaic Idealize.ShloMosaic.ValueIdx Cert.DenseRow Cert.PlainDot

/-- The vector unit's product into the zero accumulator, read at `(p, c)`. -/
theorem kdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    matmul (DotDims.plain R K N) prec a w (constant ⟨2, ![R, N]⟩ .f32 0x00000000#32) (ix2 p c)
      = ∑ k : Fin K, a (ix2 p k) * w (ix2 k c) := by
  show FloatOps.matmul (DotDims.plain R K N) prec a w (constant ⟨2, ![R, N]⟩ .f32 0x00000000#32) (ix2 p c) = _
  rw [Ideal.matmul_constant_zero_apply]
  exact contr_sum (DotDims.plain R K N) rfl rfl (lhs_at R K N) (rhs_at R K N) a w p c

/-- The host's `dot_general`, read at `(p, c)`: the same sum. -/
theorem hdot_apply {R K N : ℕ} {φ₁ φ₂ : FTy} (prec : Option ContractPrecision)
    (a : FVec Ideal ⟨2, ![R, K]⟩ φ₁) (w : FVec Ideal ⟨2, ![K, N]⟩ φ₂) (p : Fin R) (c : Fin N) :
    Host.dotGeneral (DotDims.plain R K N) prec a w (ix2 p c) = ∑ k : Fin K, a (ix2 p k) * w (ix2 k c) := by
  simp only [Host.dotGeneral]
  rw [Ideal.dotGeneral_apply]
  exact contr_sum (DotDims.plain R K N) rfl rfl (lhs_at R K N) (rhs_at R K N) a w p c

/-- Row `p` of the vector unit's product of `a` is row `p'` of the host's product of `A` when row `p` of `a` is row `p'`
    of `A` and the right operands agree on column `c`. -/
theorem kdot_rows {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (p : Fin R) (p' : Fin R') (c : Fin N)
    (ha : ∀ k : Fin K, (a (ix2 p k) : EReal) = A (ix2 p' k)) (hw : ∀ k : Fin K, (w (ix2 k c) : EReal) = W (ix2 k c)) :
    (matmul (DotDims.plain R K N) prec a w (constant ⟨2, ![R, N]⟩ .f32 0x00000000#32) (ix2 p c) : EReal)
      = Host.dotGeneral (DotDims.plain R' K N) prec' A W (ix2 p' c) := by
  rw [kdot_apply, hdot_apply]
  exact Finset.sum_congr rfl fun k _ => by rw [ha k, hw k]

/-- The same at indices given by the values of their coordinates: the output index `j` of the block and the output index
    `i` of the whole array name the same column, and `i`'s row is `j`'s row moved down by `off`; the block `a` is `A` read
    `off` rows down; the right operands are one array. -/
theorem kdot_block {R R' K N : ℕ} {φ₁ φ₁' φ₂ φ₂' : FTy} (prec prec' : Option ContractPrecision)
    (a : FVec Ideal ⟨2, ![R, K]⟩ φ₁) (A : FVec Ideal ⟨2, ![R', K]⟩ φ₁')
    (w : FVec Ideal ⟨2, ![K, N]⟩ φ₂) (W : FVec Ideal ⟨2, ![K, N]⟩ φ₂') (off : ℕ)
    (j : (⟨2, ![R, N]⟩ : Shape).Idx) (i : (⟨2, ![R', N]⟩ : Shape).Idx)
    (hi0 : (i 0).val = off + (j 0).val) (hi1 : (i 1).val = (j 1).val)
    (ha : ∀ (y : (⟨2, ![R, K]⟩ : Shape).Idx) (z : (⟨2, ![R', K]⟩ : Shape).Idx),
      (z 0).val = off + (y 0).val → (z 1).val = (y 1).val → (a y : EReal) = A z)
    (hw : ∀ y : (⟨2, ![K, N]⟩ : Shape).Idx, (w y : EReal) = W y) :
    (matmul (DotDims.plain R K N) prec a w (constant ⟨2, ![R, N]⟩ .f32 0x00000000#32) j : EReal)
      = Host.dotGeneral (DotDims.plain R' K N) prec' A W i := by
  obtain ⟨p, c, rfl⟩ : ∃ (p : Fin R) (c : Fin N), j = ix2 p c := ⟨j 0, j 1, eq_ix2 j⟩
  obtain ⟨p', c', rfl⟩ : ∃ (p' : Fin R') (c' : Fin N), i = ix2 p' c' := ⟨i 0, i 1, eq_ix2 i⟩
  obtain rfl : c' = c := Fin.ext hi1
  exact kdot_rows prec prec' a A w W p p' c' (fun k => ha (ix2 p k) (ix2 p' k) hi0 rfl) (fun k => hw (ix2 k c'))

end Cert.BlockDot

end
-- ==== Proof.LibRegionRows.lean ====
/-
  ROWS OF A MATRIX PRODUCT, read off a block of rows, at the ideal values.

  A grid of blocks of rows computes a matrix product block by block: the block at offset `off` holds rows
  `off, off + 1, …` of the tall left operand, the right operand is whole at every block.  Entry `(p, c)` of the block's
  product is then entry `(off + p, c)` of the product of the whole arrays, `∑ k, A (off + p, k) · W (k, c)`.  Stated
  here once for every extent, over the plain dimension record, with the block and the arrays as variables and the
  relation between them as hypotheses on coordinates; the whole-array product is the function `prodArr A W`.  The sums are
  compared term by term: no algebra of the extended reals is used.
-/
import proofs.«118429_j11905649344801_2_alg».proof.Proof.LibBlockDot

noncomputable section

open scoped BigOperators

namespace Cert.KernelIdeal.RegionValue

open Idealize.ShloMosaic Idealize.ShloMosaic.ValueIdx

/-- The offsets `(0, 0)` of a whole-buffer access are the zero function. -/
theorem off2_zero : (![0, 0] : Fin 2 → Nat) = fun _ => 0 := funext fun a => by fin_cases a <;> rfl

/-- The contents of an array of reals, as a function from its indices to the extended reals.  The identity: it only names
    the type, for a buffer whose element type is known by unfolding only. -/
abbrev realArr (s : Shape) (f : s.Idx → EReal) : s.Idx → EReal := f

/-- The product of an `[R, K]` array and a `[K, N]` array, index by index. -/
def prodArr {R K N : ℕ} (A : (⟨2, ![R, K]⟩ : Shape).Idx → EReal) (W : (⟨2, ![K, N]⟩ : Shape).Idx → EReal) :
    (⟨2, ![R, N]⟩ : Shape).Idx → EReal :=
  fun i => ∑ k : Fin K, A (ix2 (i 0) k) * W (ix2 k (i 1))

theorem prodArr_apply {R K N : ℕ} (A : (⟨2, ![R, K]⟩ : Shape).Idx → EReal) (W : (⟨2, ![K, N]⟩ : Shape).Idx → EReal)
    (p : Fin R) (c : Fin N) : prodArr A W (ix2 p c) = ∑ k : Fin K, A (ix2 p k) * W (ix2 k c) := rfl

/-- The vector unit's product of a block `a` of rows and `w`, at the block's index `y`, is the whole product at the
    array's index `i`, when `i` is `y` moved down by `off` rows, `a` is `A` read `off` rows down, and `w` is `W`. -/
theorem block_prod {R R' K N : ℕ} {φ₁ φ₂ : FTy} (prec : Option ContractPrecision)
    (a : FVec Ideal ⟨2, ![R, K]⟩ φ₁) (w : FVec Ideal ⟨2, ![K, N]⟩ φ₂)
    (A : (⟨2, ![R', K]⟩ : Shape).Idx → EReal) (W : (⟨2, ![K, N]⟩ : Shape).Idx → EReal) (off : ℕ)
    (y : (⟨2, ![R, N]⟩ : Shape).Idx) (i : (⟨2, ![R', N]⟩ : Shape).Idx)
    (hi0 : (i 0).val = off + (y 0).val) (hi1 : (i 1).val = (y 1).val)
    (ha : ∀ (u : (⟨2, ![R, K]⟩ : Shape).Idx) (z : (⟨2, ![R', K]⟩ : Shape).Idx),
      (z 0).val = off + (u 0).val → (z 1).val = (u 1).val → (a u : EReal) = A z)
    (hw : ∀ u : (⟨2, ![K, N]⟩ : Shape).Idx, (w u : EReal) = W u) :
    (matmul (DotDims.plain R K N) prec a w (constant ⟨2, ![R, N]⟩ .f32 0x00000000#32) y : EReal) = prodArr A W i := by
  obtain ⟨p, c, rfl⟩ : ∃ (p : Fin R) (c : Fin N), y = ix2 p c := ⟨y 0, y 1, eq_ix2 y⟩
  obtain ⟨p', c', rfl⟩ : ∃ (p' : Fin R') (c' : Fin N), i = ix2 p' c' := ⟨i 0, i 1, eq_ix2 i⟩
  obtain rfl : c' = c := Fin.ext hi1
  rw [Cert.BlockDot.kdot_apply, prodArr_apply]
  exact Finset.sum_congr rfl fun k _ => by rw [ha (ix2 p k) (ix2 p' k) hi0 rfl, hw (ix2 k c')]

end Cert.KernelIdeal.RegionValue

end
-- ==== Proof.LibProdRows.lean ====
/-
  A MATRIX PRODUCT AS A WHOLE ARRAY, AND SUMS OF ARRAYS, ROW BY ROW, at the ideal values.

  Over LibRegionRows' `prodArr A W` (the product of an `[R, K]` and a `[K, N]` array, entry `(p, c)` being
  `∑ k, A (p, k) · W (k, c)`), generic in every extent:
  • `kprod`: on the vector unit, the matrix product into a zero accumulator over the plain dimension record IS `prodArr`;
  • `hprod`: on the host, `dot_general` over the plain record IS `prodArr`;
  • `prodArr_rows`: row `p` of a product depends on row `p` of the left operand and on nothing else of it;
  • `addArr`, `addArr_rows`: two arrays added entry by entry, and the same locality.
  Together with LibDenseRow's `layerArr_rows` and `actArr_rows` these say that a network of products, dense layers,
  rectifiers and residual sums computed on a block of rows is that block of rows of the network computed on the whole.
  Sums are compared term by term in the same order: no algebra of the extended reals is used.
-/
import proofs.«118429_j11905649344801_2_alg».proof.Proof.LibRegionRows

noncomputable section

open scoped BigOperators

namespace Cert.ProdRows

open Idealize.ShloMosaic Idealize.ShloMosaic.ValueIdx Cert.DenseRow
open Cert.KernelIdeal.RegionValue (prodArr prodArr_apply)

/-- The vector unit's product into the zero accumulator, as a whole array. -/
theorem kprod {R K N : ℕ} {φ₁ φ₂ : FTy} (prec : Option ContractPrecision)
    (a : FVec Ideal ⟨2, ![R, K]⟩ φ₁) (w : FVec Ideal ⟨2, ![K, N]⟩ φ₂) :
    matmul (DotDims.plain R K N) prec a w (constant ⟨2, ![R, N]⟩ .f32 0x00000000#32) = prodArr a w := by
  funext i
  obtain ⟨p, c, rfl⟩ : ∃ (p : Fin R) (c : Fin N), i = ix2 p c := ⟨i 0, i 1, eq_ix2 i⟩
  exact Cert.BlockDot.kdot_apply prec a w p c

/-- The host's `dot_general`, as a whole array. -/
theorem hprod {R K N : ℕ} {φ₁ φ₂ : FTy} (prec : Option ContractPrecision)
    (a : FVec Ideal ⟨2, ![R, K]⟩ φ₁) (w : FVec Ideal ⟨2, ![K, N]⟩ φ₂) :
    Host.dotGeneral (DotDims.plain R K N) prec a w = prodArr a w := by
  funext i
  obtain ⟨p, c, rfl⟩ : ∃ (p : Fin R) (c : Fin N), i = ix2 p c := ⟨i 0, i 1, eq_ix2 i⟩
  exact Cert.BlockDot.hdot_apply prec a w p c

/-- Row `p` of a product depends on row `p` of the left operand only. -/
theorem prodArr_rows {R R' K N : ℕ} (a : (⟨2, ![R, K]⟩ : Shape).Idx → EReal) (A : (⟨2, ![R', K]⟩ : Shape).Idx → EReal)
    (w : (⟨2, ![K, N]⟩ : Shape).Idx → EReal) (p : Fin R) (p' : Fin R')
    (h : ∀ k : Fin K, a (ix2 p k) = A (ix2 p' k)) (c : Fin N) : prodArr a w (ix2 p c) = prodArr A w (ix2 p' c) := by
  rw [prodArr_apply, prodArr_apply]
  exact Finset.sum_congr rfl fun k _ => by rw [h k]

/-- Two arrays added entry by entry. -/
def addArr {s : Shape} (x y : s.Idx → EReal) : s.Idx → EReal := fun i => x i + y i

/-- On either unit, the float sum of two arrays at the ideal values. -/
theorem addf_eq {s : Shape} {φ : FTy} (x y : FVec Ideal s φ) : addf x y = addArr x y := rfl

theorem addArr_rows {R R' N : ℕ} (x y : (⟨2, ![R, N]⟩ : Shape).Idx → EReal) (X Y : (⟨2, ![R', N]⟩ : Shape).Idx → EReal)
    (p : Fin R) (p' : Fin R') (hx : ∀ k : Fin N, x (ix2 p k) = X (ix2 p' k)) (hy : ∀ k : Fin N, y (ix2 p k) = Y (ix2 p' k))
    (c : Fin N) : addArr x y (ix2 p c) = addArr X Y (ix2 p' c) := by
  show x (ix2 p c) + y (ix2 p c) = X (ix2 p' c) + Y (ix2 p' c)
  rw [hx c, hy c]

end Cert.ProdRows

end
-- ==== Proof.LibPairLayer.lean ====
/-
  A DENSE LAYER WITH TWO INPUTS, at the ideal values.

  A node of a bipartite graph keeps its own feature row `x` and receives the mean `h` of its neighbours' rows; its new row
  is  `j ↦ ((∑ k, x k · ws k j) + (∑ k, h k · wn k j)) + b j`,  optionally rectified (the larger of each entry and
  zero).  Stated here for any number `R` of rows, any inner extent `K` and any width `N`, as one whole-array function
  `pairLayer x h ws wn b` built from the product `prodArr`, the entrywise sum `addArr` and the bias repeated on every
  row (`biasRows`).  Row `p` of the result depends only on row `p` of `x` and of `h` (`pairLayer_rows`), so the layer of
  a block of rows is that block of rows of the layer of the whole arrays.  Two spellings are shown equal to it:
  • on the vector unit, two matrix products into zero accumulators over operands whose change of format is the identity,
    added, plus a one-row bias `[1, N]` broadcast over the rows (`kpair`), and the same under the rectifier with a splat
    zero (`kpair_relu`);
  • on the host, two `dot_general`s added, plus the bias `[N]` broadcast to one row and then over the rows (`hpair`), and
    the same under the rectifier with the zero constant broadcast from a scalar (`hpair_relu`).
  The sums are compared term by term in the order written: no sum is regrouped and nothing is assumed finite.
-/
import proofs.«118429_j11905649344801_2_alg».proof.Proof.LibRowBias
import proofs.«118429_j11905649344801_2_alg».proof.Proof.LibProdRows

noncomputable section

open scoped BigOperators

namespace Cert.PairLayer

open Idealize.ShloMosaic Idealize.ShloMosaic.ValueIdx Cert.DenseRow Cert.RowBias Cert.ProdRows
open Cert.KernelIdeal.RegionValue (prodArr prodArr_apply)

/-! ## The bias on every row -/

/-- A vector of `N` numbers repeated on each of `R` rows. -/
def biasRows {R N : ℕ} (b : (⟨1, ![N]⟩ : Shape).Idx → EReal) : (⟨2, ![R, N]⟩ : Shape).Idx → EReal :=
  fun i => b (ix1 (i 1))

theorem biasRows_apply {R N : ℕ} (b : (⟨1, ![N]⟩ : Shape).Idx → EReal) (p : Fin R) (c : Fin N) :
    biasRows (R := R) b (ix2 p c) = b (ix1 c) := rfl

/-- On the vector unit: a one-row array cast to itself and broadcast over the rows repeats its row. -/
theorem kbias {R N : ℕ} (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    broadcastTo ⟨2, ![R, N]⟩ (shapeCast ⟨2, ![1, N]⟩ v hc) hb = biasRows (unrow v) := by
  funext i
  obtain ⟨p, c, rfl⟩ : ∃ (p : Fin R) (c : Fin N), i = ix2 p c := ⟨i 0, i 1, eq_ix2 i⟩
  rw [shapeCast_self, broadcastTo_1b_ab_apply]
  rfl

/-- On the host: a vector broadcast to one row and then over the rows repeats it. -/
theorem hbias {R N : ℕ} (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    broadcastInDim ⟨2, ![R, N]⟩ ![0, 1] h2 (broadcastInDim ⟨2, ![1, N]⟩ ![1] h1 b) = biasRows b := by
  funext i
  obtain ⟨p, c, rfl⟩ : ∃ (p : Fin R) (c : Fin N), i = ix2 p c := ⟨i 0, i 1, eq_ix2 i⟩
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  rfl

/-! ## The layer -/

/-- `x · ws + h · wn + b` on every row. -/
def pairLayer {R K N : ℕ} (x h : (⟨2, ![R, K]⟩ : Shape).Idx → EReal) (ws wn : (⟨2, ![K, N]⟩ : Shape).Idx → EReal)
    (b : (⟨1, ![N]⟩ : Shape).Idx → EReal) : (⟨2, ![R, N]⟩ : Shape).Idx → EReal :=
  addArr (addArr (prodArr x ws) (prodArr h wn)) (biasRows b)

theorem pairLayer_apply {R K N : ℕ} (x h : (⟨2, ![R, K]⟩ : Shape).Idx → EReal) (ws wn : (⟨2, ![K, N]⟩ : Shape).Idx → EReal)
    (b : (⟨1, ![N]⟩ : Shape).Idx → EReal) (p : Fin R) (c : Fin N) :
    pairLayer x h ws wn b (ix2 p c)
      = ((∑ k : Fin K, x (ix2 p k) * ws (ix2 k c)) + (∑ k : Fin K, h (ix2 p k) * wn (ix2 k c))) + b (ix1 c) := rfl

/-- Row `p` of the layer depends on row `p` of the two tall operands only. -/
theorem pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    pairLayer x h ws wn b (ix2 p c) = pairLayer X H ws wn b (ix2 p' c) := by
  rw [pairLayer_apply, pairLayer_apply]
  rw [show (∑ k : Fin K, x (ix2 p k) * ws (ix2 k c)) = ∑ k : Fin K, X (ix2 p' k) * ws (ix2 k c) from
      Finset.sum_congr rfl fun k _ => by rw [hx k],
    show (∑ k : Fin K, h (ix2 p k) * wn (ix2 k c)) = ∑ k : Fin K, H (ix2 p' k) * wn (ix2 k c) from
      Finset.sum_congr rfl fun k _ => by rw [hh k]]

/-- The same under the rectifier. -/
theorem relu_pairLayer_rows {R R' K N : ℕ} (x h : (⟨2, ![R, K]⟩ : Shape).Idx → EReal) (X H : (⟨2, ![R', K]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hh : ∀ k : Fin K, h (ix2 p k) = H (ix2 p' k)) (c : Fin N) :
    actArr zf (pairLayer x h ws wn b) (ix2 p c) = actArr zf (pairLayer X H ws wn b) (ix2 p' c) :=
  actArr_rows zf _ _ p p' (fun j => pairLayer_rows x h X H ws wn b p p' hx hh j) c

/-! ## The vector unit's spelling -/

/-- Two products into zero accumulators over operands cast to themselves and changed of format, added, plus the one-row
    bias broadcast over the rows. -/
theorem kpair {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4)
      = pairLayer x0 x1 x2 x3 (unrow x4) := by
  rw [kbias, kprod, kprod, shapeCast_self, shapeCast_self]
  rfl

/-- The same under the rectifier: the larger of the layer and the zero word splat over it. -/
theorem kpair_relu {R K N : ℕ} (x0 x1 : FVec Ideal ⟨2, ![R, K]⟩ .f32) (x2 x3 : FVec Ideal ⟨2, ![K, N]⟩ .f32)
    (x4 : FVec Ideal ⟨2, ![1, N]⟩ .f32)
    (hc0 : (⟨2, ![R, K]⟩ : Shape).ShapeCasts ⟨2, ![R, K]⟩)
    (hc4 : (⟨2, ![1, N]⟩ : Shape).ShapeCasts ⟨2, ![1, N]⟩) (hb4 : (⟨2, ![1, N]⟩ : Shape).Broadcasts ⟨2, ![R, N]⟩)
    (hbits : FTy.bf16.bits < FTy.f32.bits) :
    maximumf (addf (addf
        (matmul (DotDims.plain R K N) none (truncf .bf16 (shapeCast ⟨2, ![R, K]⟩ x0 hc0) hbits) (truncf .bf16 x2 hbits)
          (constant ⟨2, ![R, N]⟩ .f32 0x00000000#32))
        (matmul (DotDims.plain R K N) none (truncf .bf16 (shapeCast ⟨2, ![R, K]⟩ x1 hc0) hbits) (truncf .bf16 x3 hbits)
          (constant ⟨2, ![R, N]⟩ .f32 0x00000000#32)))
      (broadcastTo ⟨2, ![R, N]⟩ (shapeCast ⟨2, ![1, N]⟩ x4 hc4) hb4))
      (broadcast ⟨2, ![R, N]⟩ (Scalar.ofBits (F := Ideal) .f32 0x00000000#32))
      = actArr zf (pairLayer x0 x1 x2 x3 (unrow x4)) := by
  rw [kact, kpair]

/-! ## The host's spelling -/

/-- Two `dot_general`s added, plus the bias broadcast to one row and then over the rows. -/
theorem hpair {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b))
      = pairLayer x h ws wn b := by
  rw [hbias, hprod, hprod]
  rfl

/-- The same under the rectifier: the larger of the layer and the zero constant broadcast from a scalar. -/
theorem hpair_relu {R K N : ℕ} (x h : FVec Ideal ⟨2, ![R, K]⟩ .f32) (ws wn : FVec Ideal ⟨2, ![K, N]⟩ .f32)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) :
    maximumf (addf (addf (Host.dotGeneral (DotDims.plain R K N) none x ws) (Host.dotGeneral (DotDims.plain R K N) none h wn))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = actArr zf (pairLayer x h ws wn b) := by
  rw [hact, hpair]

end Cert.PairLayer

end
-- ==== Proof.LibMeanScale.lean ====
/-
  ROWS SCALED BY A COLUMN, AND A MEAN TAKEN TWO WAYS, at the ideal values.

  A mean over a node's neighbours is the sum of their rows divided by their number.  Two spellings occur.  One divides
  every entry of row `p` of the sum `a` by `D p` (the count, raised to at least one).  The other first takes the reciprocal
  `1 / D p` once per row, keeps it as a column `[R, 1]`, and multiplies row `p` of `a` by it.  On the extended reals
  `x / y` is `x · y⁻¹` whenever `y ≠ 0`, and `1 · z = z`, so  `x · (1 / y) = x / y`  for EVERY extended real `x` and
  every `y ≠ 0`, infinite ones included: nothing has to be finite (`mul_one_div`).  A count raised to at least one is
  never zero (`max_one_ne_zero`).
  Stated for any number `R` of rows and any width `K`:
  • `scaleRows a s`: row `p` of `a` times the one entry of row `p` of the column `s`; it depends on row `p` only
    (`scaleRows_rows`);
  • `kscale`: on the vector unit, the product of `a` (cast to itself) with the column cast to itself and broadcast along
    the rows IS `scaleRows a s`;
  • `hmean`: on the host, the quotient of `a` by the vector `D` broadcast to a column and then along the rows IS
    `scaleRows a` of the column obtained by reshaping `one / D`, when `one` is 1 everywhere and `D` is nowhere zero;
  • the two layout facts used: a column broadcast along the rows (`broadcastTo_a1_ab_apply`), a vector reshaped to a
    column (`shapeCast_a_a1_apply`), a vector broadcast to a column and a column broadcast along the rows on the host
    (`bcast_a_a1_apply`, `bcast_a1_ab_apply`), a scalar constant broadcast to any shape (`bcast_const_apply`).
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.MeanScale

open Idealize.ShloMosaic Idealize.ShloMosaic.ValueIdx

/-! ## The law on the extended reals -/

/-- The float word of 1.0 is the number one. -/
theorem ofBits_one : Ideal.ofBits .f32 0x3F800000#32 = 1 := by
  simp [Ideal.ofBits, Ideal.ieee, -EReal.coe_mul]; norm_num

/-- Multiplying by the reciprocal is dividing, for every extended real `x` and every divisor other than zero. -/
theorem mul_one_div {x y : EReal} (hy : y ≠ 0) : x * Ideal.div 1 y = Ideal.div x y := by
  unfold Ideal.div
  rw [if_neg hy, if_neg hy, one_mul]

/-- A number raised to at least one is not zero. -/
theorem max_one_ne_zero (d : EReal) : max d 1 ≠ 0 :=
  ne_of_gt (lt_of_lt_of_le zero_lt_one (le_max_right d 1))

/-! ## Layout facts -/

variable {α : Type}

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` reshaped to a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- On the host: a vector `[a]` broadcast to a column `[a, 1]` along axis 0 reads, at `(p, u)`, the vector at `p`. -/
theorem bcast_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- On the host: a column `[a, 1]` broadcast to `[a, b]` reads, at `(p, c)`, the column's entry of row `p`. -/
theorem bcast_a1_ab_apply {a b : ℕ} (v : (⟨2, ![a, 1]⟩ : Shape).Idx → α) (h : (⟨2, ![a, 1]⟩ : Shape).BroadcastsInDim ⟨2, ![a, b]⟩ ![0, 1])
    (p : Fin a) (c : Fin b) : broadcastInDim ⟨2, ![a, b]⟩ ![0, 1] h v (ix2 p c) = v (ix2 p (0 : Fin 1)) :=
  broadcastInDim_apply _ h v (ix2 p c) (ix2 p (0 : Fin 1)) fun ax => by
    match ax with
    | ⟨0, _⟩ =>
      show p.val = if a = 1 then 0 else p.val
      split
      · have := p.isLt; omega
      · rfl
    | ⟨1, _⟩ =>
      show (0 : ℕ) = if (1 : ℕ) = 1 then 0 else c.val
      rw [if_pos rfl]

/-- A scalar float constant broadcast to any shape reads its word's value everywhere. -/
theorem bcast_const_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w := by
  rw [broadcastInDim_apply _ h _ i ix0 (fun a => a.elim0)]
  rfl

/-! ## Rows scaled by a column -/

/-- Row `p` of `a` times the one entry of row `p` of the column `s`. -/
def scaleRows {R K : ℕ} (a : (⟨2, ![R, K]⟩ : Shape).Idx → EReal) (s : (⟨2, ![R, 1]⟩ : Shape).Idx → EReal) :
    (⟨2, ![R, K]⟩ : Shape).Idx → EReal :=
  fun i => a i * s (ix2 (i 0) (0 : Fin 1))

theorem scaleRows_apply {R K : ℕ} (a : (⟨2, ![R, K]⟩ : Shape).Idx → EReal) (s : (⟨2, ![R, 1]⟩ : Shape).Idx → EReal)
    (p : Fin R) (k : Fin K) : scaleRows a s (ix2 p k) = a (ix2 p k) * s (ix2 p (0 : Fin 1)) := rfl

/-- Row `p` of the scaled array depends on row `p` of the array and of the column only. -/
theorem scaleRows_rows {R R' K : ℕ} (a : (⟨2, ![R, K]⟩ : Shape).Idx → EReal) (s : (⟨2, ![R, 1]⟩ : Shape).Idx → EReal)
    (A : (⟨2, ![R', K]⟩ : Shape).Idx → EReal) (S : (⟨2, ![R', 1]⟩ : Shape).Idx → EReal) (p : Fin R) (p' : Fin R')
    (ha : ∀ k : Fin K, a (ix2 p k) = A (ix2 p' k)) (hs : s (ix2 p (0 : Fin 1)) = S (ix2 p' (0 : Fin 1))) (k : Fin K) :
    scaleRows a s (ix2 p k) = scaleRows A S (ix2 p' k) := by
  rw [scaleRows_apply, scaleRows_apply, ha k, hs]

/-- On the vector unit: the array cast to itself times the column cast to itself and broadcast along the rows. -/
theorem kscale {R K : ℕ} (a : FVec Ideal ⟨2, ![R, K]⟩ .f32) (s : FVec Ideal ⟨2, ![R, 1]⟩ .f32)
    (ha : (⟨2, ![R, K]⟩ : Shape).ShapeCasts ⟨2, ![R, K]⟩) (hs : (⟨2, ![R, 1]⟩ : Shape).ShapeCasts ⟨2, ![R, 1]⟩)
    (hb : (⟨2, ![R, 1]⟩ : Shape).Broadcasts ⟨2, ![R, K]⟩) :
    mulf (shapeCast ⟨2, ![R, K]⟩ a ha) (broadcastTo ⟨2, ![R, K]⟩ (shapeCast ⟨2, ![R, 1]⟩ s hs) hb) = scaleRows a s := by
  funext i
  obtain ⟨p, k, rfl⟩ : ∃ (p : Fin R) (k : Fin K), i = ix2 p k := ⟨i 0, i 1, eq_ix2 i⟩
  show (shapeCast ⟨2, ![R, K]⟩ a ha (ix2 p k) : EReal) * broadcastTo ⟨2, ![R, K]⟩ (shapeCast ⟨2, ![R, 1]⟩ s hs) hb (ix2 p k) = _
  rw [shapeCast_self, shapeCast_self, broadcastTo_a1_ab_apply]
  rfl

/-- On the host: the array divided by the vector `D` broadcast to a column and then along the rows is the array scaled
    by the column of reciprocals `one / D`, when `one` is 1 everywhere and `D` is nowhere zero. -/
theorem hmean {R K : ℕ} (a : FVec Ideal ⟨2, ![R, K]⟩ .f32) (one D : FVec Ideal ⟨1, ![R]⟩ .f32)
    (h1 : (⟨1, ![R]⟩ : Shape).BroadcastsInDim ⟨2, ![R, 1]⟩ ![0]) (h2 : (⟨2, ![R, 1]⟩ : Shape).BroadcastsInDim ⟨2, ![R, K]⟩ ![0, 1])
    (hc : (⟨1, ![R]⟩ : Shape).ShapeCasts ⟨2, ![R, 1]⟩) (hone : ∀ i, one i = 1) (hD : ∀ i, D i ≠ 0) :
    Host.divf a (broadcastInDim ⟨2, ![R, K]⟩ ![0, 1] h2 (broadcastInDim ⟨2, ![R, 1]⟩ ![0] h1 D))
      = scaleRows a (shapeCast ⟨2, ![R, 1]⟩ (Host.divf one D) hc) := by
  funext i
  obtain ⟨p, k, rfl⟩ : ∃ (p : Fin R) (k : Fin K), i = ix2 p k := ⟨i 0, i 1, eq_ix2 i⟩
  rw [scaleRows_apply, shapeCast_a_a1_apply]
  show Ideal.div (a (ix2 p k)) (broadcastInDim ⟨2, ![R, K]⟩ ![0, 1] h2 (broadcastInDim ⟨2, ![R, 1]⟩ ![0] h1 D) (ix2 p k))
      = a (ix2 p k) * Ideal.div (one (ix1 p)) (D (ix1 p))
  rw [bcast_a1_ab_apply, bcast_a_a1_apply, hone, mul_one_div (hD (ix1 p))]

end Cert.MeanScale

end
-- ==== Proof.LibSageLayer.lean ====
/-
  A GRAPH LAYER WITH A MEAN OVER NEIGHBOURS, at the ideal values.

  A node keeps its own feature row `x` and receives the SUM `agg` of its neighbours' rows together with one number
  `s` per node, the reciprocal of its (raised) neighbour count.  Its new row is
      j ↦ max ( ((∑ k, x k · ws k j) + (∑ k, (agg k · s) · wn k j)) + b j , 0 ),
  the rectified two-input dense layer of LibPairLayer applied to `x` and to the mean `agg · s` (LibMeanScale's
  `scaleRows`).  Stated for any number `R` of rows, inner extent `K` and width `N` as one whole-array function
  `sageArr x agg s ws wn b`.  Row `p` of it depends only on row `p` of `x`, of `agg` and of the column `s`
  (`sageArr_rows`), so the layer of a block of rows is that block of rows of the layer of the whole arrays; the same for
  a dense read-out `layerArr` applied after it (`readout_rows`).  Spellings shown equal to it:
  • on the vector unit, with the first operand in the wide format and narrowed (`ksage_wide`) or already narrow and
    cast to itself (`ksage_narrow`): two matrix products into zero accumulators, the second over the product of
    `agg` with the column broadcast along the rows, added, plus a one-row bias broadcast over the rows, under the
    rectifier with a splat zero; changes of float format are the identity;
  • the same followed by a third matrix product with a one-row bias, a dense read-out of the rectified rows
    (`ksage_readout`);
  • on the host, two `dot_general`s, the second over the QUOTIENT of `agg` by the count broadcast to a column and along
    the rows, added, plus the bias broadcast to one row and over the rows, under the rectifier with the zero constant
    broadcast from a scalar (`hsage`): equal to `sageArr` at the column of reciprocals because the count raised to at
    least one is never zero (LibMeanScale `hmean`).
  No sum is regrouped and nothing is assumed finite.
-/
import proofs.«118429_j11905649344801_2_alg».proof.Proof.LibPairLayer
import proofs.«118429_j11905649344801_2_alg».proof.Proof.LibMeanScale

noncomputable section

open scoped BigOperators

namespace Cert.SageLayer

open Idealize.ShloMosaic Idealize.ShloMosaic.ValueIdx Cert.DenseRow Cert.RowBias Cert.ProdRows Cert.PairLayer Cert.MeanScale
open Cert.KernelIdeal.RegionValue (prodArr prodArr_apply)

/-- The rectified two-input layer over a node's own row and the mean `agg · s` of its neighbours' rows. -/
def sageArr {R K N : ℕ} (x agg : (⟨2, ![R, K]⟩ : Shape).Idx → EReal) (s : (⟨2, ![R, 1]⟩ : Shape).Idx → EReal)
    (ws wn : (⟨2, ![K, N]⟩ : Shape).Idx → EReal) (b : (⟨1, ![N]⟩ : Shape).Idx → EReal) : (⟨2, ![R, N]⟩ : Shape).Idx → EReal :=
  actArr zf (pairLayer x (scaleRows agg s) ws wn b)

/-- Row `p` of the layer depends on row `p` of the node rows, of the neighbour sums and of the column only. -/
theorem sageArr_rows {R R' K N : ℕ} (x agg : (⟨2, ![R, K]⟩ : Shape).Idx → EReal) (s : (⟨2, ![R, 1]⟩ : Shape).Idx → EReal)
    (X AGG : (⟨2, ![R', K]⟩ : Shape).Idx → EReal) (S : (⟨2, ![R', 1]⟩ : Shape).Idx → EReal)
    (ws wn : (⟨2, ![K, N]⟩ : Shape).Idx → EReal) (b : (⟨1, ![N]⟩ : Shape).Idx → EReal) (p : Fin R) (p' : Fin R')
    (hx : ∀ k : Fin K, x (ix2 p k) = X (ix2 p' k)) (hagg : ∀ k : Fin K, agg (ix2 p k) = AGG (ix2 p' k))
    (hs : s (ix2 p (0 : Fin 1)) = S (ix2 p' (0 : Fin 1))) (c : Fin N) :
    sageArr x agg s ws wn b (ix2 p c) = sageArr X AGG S ws wn b (ix2 p' c) :=
  relu_pairLayer_rows x (scaleRows agg s) X (scaleRows AGG S) ws wn b p p' hx
    (fun k => scaleRows_rows agg s AGG S p p' hagg hs k) c

/-- A dense read-out after the layer: row `p` of it depends on row `p` of the layer's operands only. -/
theorem readout_rows {R R' K N M : ℕ} (x agg : (⟨2, ![R, K]⟩ : Shape).Idx → EReal) (s : (⟨2, ![R, 1]⟩ : Shape).Idx → EReal)
    (X AGG : (⟨2, ![R', K]⟩ : Shape).Idx → EReal) (S : (⟨2, ![R', 1]⟩ : Shape).Idx → EReal)
    (ws wn : (⟨2, ![K, N]⟩ : Shape).Idx → EReal) (b : (⟨1, ![N]⟩ : Shape).Idx → EReal)
    (wo : (⟨2, ![N, M]⟩ : Shape).Idx → EReal) (bo : (⟨1, ![M]⟩ : Shape).Idx → EReal) (p : Fin R) (p' : Fin R')
    (hx : ∀ k : Fin K, x (ix2 p k) = X (ix2 p' k)) (hagg : ∀ k : Fin K, agg (ix2 p k) = AGG (ix2 p' k))
    (hs : s (ix2 p (0 : Fin 1)) = S (ix2 p' (0 : Fin 1))) (c : Fin M) :
    layerArr (sageArr x agg s ws wn b) wo bo (ix2 p c) = layerArr (sageArr X AGG S ws wn b) wo bo (ix2 p' c) :=
  layerArr_rows _ _ wo bo p p' (fun j => sageArr_rows x agg s X AGG S ws wn b p p' hx hagg hs j) c

/-! ## The vector unit's spellings -/

/-- The first operand arrives in the wide format and is narrowed. -/
theorem ksage_wide {R K N : ℕ} (x0 x1 : FVec Ideal ⟨2, ![R, K]⟩ .f32) (x2 : FVec Ideal ⟨2, ![R, 1]⟩ .f32)
    (x3 x4 : FVec Ideal ⟨2, ![K, N]⟩ .f32) (x5 : FVec Ideal ⟨2, ![1, N]⟩ .f32)
    (hc1 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    maximumf (addf (addf
        (matmul (DotDims.plain R K N) none (truncf .bf16 x0 hbits) (truncf .bf16 x3 hbits)
          (constant ⟨2, ![R, N]⟩ .f32 0x00000000#32))
        (matmul (DotDims.plain R K N) none
          (truncf .bf16 (mulf (shapeCast ⟨2, ![R, K]⟩ x1 hc1) (broadcastTo ⟨2, ![R, K]⟩ (shapeCast ⟨2, ![R, 1]⟩ x2 hc2) hb2)) hbits)
          (truncf .bf16 x4 hbits) (constant ⟨2, ![R, N]⟩ .f32 0x00000000#32)))
      (broadcastTo ⟨2, ![R, N]⟩ (shapeCast ⟨2, ![1, N]⟩ x5 hc5) hb5))
      (broadcast ⟨2, ![R, N]⟩ (Scalar.ofBits (F := Ideal) .f32 0x00000000#32))
      = sageArr x0 x1 x2 x3 x4 (unrow x5) := by
  rw [kact, kbias, kprod, kprod, kscale]
  rfl

/-- The first operand arrives already narrow and is cast to itself. -/
theorem ksage_narrow {R K N : ℕ} (x0 : FVec Ideal ⟨2, ![R, K]⟩ .bf16) (x1 : FVec Ideal ⟨2, ![R, K]⟩ .f32)
    (x2 : FVec Ideal ⟨2, ![R, 1]⟩ .f32) (x3 x4 : FVec Ideal ⟨2, ![K, N]⟩ .f32) (x5 : FVec Ideal ⟨2, ![1, N]⟩ .f32)
    (hc1 : (⟨2, ![R, K]⟩ : Shape).ShapeCasts ⟨2, ![R, K]⟩) (hc2 : (⟨2, ![R, 1]⟩ : Shape).ShapeCasts ⟨2, ![R, 1]⟩)
    (hb2 : (⟨2, ![R, 1]⟩ : Shape).Broadcasts ⟨2, ![R, K]⟩)
    (hc5 : (⟨2, ![1, N]⟩ : Shape).ShapeCasts ⟨2, ![1, N]⟩) (hb5 : (⟨2, ![1, N]⟩ : Shape).Broadcasts ⟨2, ![R, N]⟩)
    (hbits : FTy.bf16.bits < FTy.f32.bits) :
    maximumf (addf (addf
        (matmul (DotDims.plain R K N) none (shapeCast ⟨2, ![R, K]⟩ x0 hc1) (truncf .bf16 x3 hbits)
          (constant ⟨2, ![R, N]⟩ .f32 0x00000000#32))
        (matmul (DotDims.plain R K N) none
          (truncf .bf16 (mulf (shapeCast ⟨2, ![R, K]⟩ x1 hc1) (broadcastTo ⟨2, ![R, K]⟩ (shapeCast ⟨2, ![R, 1]⟩ x2 hc2) hb2)) hbits)
          (truncf .bf16 x4 hbits) (constant ⟨2, ![R, N]⟩ .f32 0x00000000#32)))
      (broadcastTo ⟨2, ![R, N]⟩ (shapeCast ⟨2, ![1, N]⟩ x5 hc5) hb5))
      (broadcast ⟨2, ![R, N]⟩ (Scalar.ofBits (F := Ideal) .f32 0x00000000#32))
      = sageArr x0 x1 x2 x3 x4 (unrow x5) := by
  rw [kact, kbias, kprod, kprod, kscale, shapeCast_self]
  rfl

/-- A third matrix product with a one-row bias after the rectified layer `y`: a dense read-out of its rows. -/
theorem kreadout {R N M : ℕ} (y : FVec Ideal ⟨2, ![R, N]⟩ .f32) (x6 : FVec Ideal ⟨2, ![N, M]⟩ .f32)
    (x7 : FVec Ideal ⟨2, ![1, M]⟩ .f32)
    (hc7 : (⟨2, ![1, M]⟩ : Shape).ShapeCasts ⟨2, ![1, M]⟩) (hb7 : (⟨2, ![1, M]⟩ : Shape).Broadcasts ⟨2, ![R, M]⟩)
    (hbits : FTy.bf16.bits < FTy.f32.bits) :
    addf (matmul (DotDims.plain R N M) none (truncf .bf16 y hbits) (truncf .bf16 x6 hbits)
          (constant ⟨2, ![R, M]⟩ .f32 0x00000000#32))
        (broadcastTo ⟨2, ![R, M]⟩ (shapeCast ⟨2, ![1, M]⟩ x7 hc7) hb7)
      = layerArr y x6 (unrow x7) :=
  klayer1Arr (DotDims.plain R N M) rfl rfl (Cert.PlainDot.lhs_at R N M) (Cert.PlainDot.rhs_at R N M) none
    (truncf .bf16 y hbits) (truncf .bf16 x6 hbits) x7 hc7 hb7

/-! ## The host's spelling -/

/-- Two `dot_general`s, the second over the quotient by the count `D` broadcast to a column and along the rows, added,
    plus the bias, under the rectifier: the layer at the column of reciprocals `one / D`. -/
theorem hsage {R K N : ℕ} (x agg : FVec Ideal ⟨2, ![R, K]⟩ .f32) (one D : FVec Ideal ⟨1, ![R]⟩ .f32)
    (ws wn : FVec Ideal ⟨2, ![K, N]⟩ .f32) (b : FVec Ideal ⟨1, ![N]⟩ .f32)
    (hd1 : (⟨1, ![R]⟩ : Shape).BroadcastsInDim ⟨2, ![R, 1]⟩ ![0]) (hd2 : (⟨2, ![R, 1]⟩ : Shape).BroadcastsInDim ⟨2, ![R, K]⟩ ![0, 1])
    (hc : (⟨1, ![R]⟩ : Shape).ShapeCasts ⟨2, ![R, 1]⟩)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![])
    (hone : ∀ i, one i = 1) (hD : ∀ i, D i ≠ 0) :
    maximumf (addf (addf (Host.dotGeneral (DotDims.plain R K N) none x ws)
          (Host.dotGeneral (DotDims.plain R K N) none
            (Host.divf agg (broadcastInDim ⟨2, ![R, K]⟩ ![0, 1] hd2 (broadcastInDim ⟨2, ![R, 1]⟩ ![0] hd1 D))) wn))
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = sageArr x agg (shapeCast ⟨2, ![R, 1]⟩ (Host.divf one D) hc) ws wn b := by
  rw [hmean agg one D hd1 hd2 hc hone hD]
  exact hpair_relu x _ ws wn b h1 h2 h0

end Cert.SageLayer

end
-- ==== Proof.SagePayload.lean ====
/-
  What each kernel body stores, as a function of the blocks it loads, at the ideal values.

  The first body computes, for its 4000 rows, the rectified graph layer  max ((x·ws + (agg·s)·wn) + b, 0)  of the node
  rows `x`, the neighbour sums `agg`, the column `s` of reciprocal counts, the two weights and the one-row bias: the
  whole-array function `sageArr` at 4000 rows.  The second body computes the same layer one level up (its node rows
  arrive in the narrow format, which is the identity here) and then the read-out  h·wo + bo  of the rectified rows.
  Each output row depends only on the same row of the three tall operands.  So when the tall blocks are rows
  `off, off + 1, …` of taller arrays, entry `(p, c)` of what a body stores is entry `(off + p, c)` of the same function
  of the tall arrays (`pay0_at`, `pay1_at`).  The printed dimension records of the three products are the plain
  matrix-product record.
-/
import proofs.«118429_j11905649344801_2_alg».proof.Proof.Gen.KernelIdeal.Skeleton
import proofs.«118429_j11905649344801_2_alg».proof.Proof.LibSageLayer

noncomputable section

open scoped BigOperators

namespace Cert.KernelIdeal.SageValue

open Idealize.ShloMosaic Idealize.ShloMosaic.ValueIdx Cert.KernelIdeal Cert.KernelIdeal.Gen
open Cert.DenseRow Cert.RowBias Cert.SageLayer

/-- The three products contract the left operand's columns with the right operand's rows. -/
theorem dot_4_128 : dot_S4000x4_S4x128_S4000x128_1_0_0_1_n_n = DotDims.plain 4000 4 128 := rfl
theorem dot_128_128 : dot_S4000x128_S128x128_S4000x128_1_0_0_1_n_n = DotDims.plain 4000 128 128 := rfl
theorem dot_128_2 : dot_S4000x128_S128x2_S4000x2_1_0_0_1_n_n = DotDims.plain 4000 128 2 := rfl

/-- The first body's stored block is the rectified layer of its loaded blocks. -/
theorem pay0_eq (x0 x1 : Vec Ideal S4000x4 .f32) (x2 : Vec Ideal S4000x1 .f32) (x3 x4 : Vec Ideal S4x128 .f32)
    (x5 : Vec Ideal S1x128 .f32) :
    k0_pay1 (F := Ideal) x0 x1 x2 x3 x4 x5 = sageArr x0 x1 x2 x3 x4 (unrow x5) := by
  unfold k0_pay1
  rw [dot_4_128]
  exact ksage_wide x0 x1 x2 x3 x4 x5 shapeCasts_S4000x4_S4000x4 shapeCasts_S4000x1_S4000x1 broadcasts_S4000x1_S4000x4
    shapeCasts_S1x128_S1x128 broadcasts_S1x128_S4000x128 bitsLt_bf16_f32

/-- The second body's stored block is the read-out of the rectified layer of its loaded blocks. -/
theorem pay1_eq (x0 : Vec Ideal S4000x128 .bf16) (x1 : Vec Ideal S4000x128 .f32) (x2 : Vec Ideal S4000x1 .f32)
    (x3 x4 : Vec Ideal S128x128 .f32) (x5 : Vec Ideal S1x128 .f32) (x6 : Vec Ideal S128x2 .f32) (x7 : Vec Ideal S1x2 .f32) :
    k1_pay1 (F := Ideal) x0 x1 x2 x3 x4 x5 x6 x7 = layerArr (sageArr x0 x1 x2 x3 x4 (unrow x5)) x6 (unrow x7) := by
  unfold k1_pay1
  rw [dot_128_128, dot_128_2]
  dsimp only
  rw [ksage_narrow x0 x1 x2 x3 x4 x5 shapeCasts_S4000x128_S4000x128 shapeCasts_S4000x1_S4000x1 broadcasts_S4000x1_S4000x128
    shapeCasts_S1x128_S1x128 broadcasts_S1x128_S4000x128 bitsLt_bf16_f32]
  exact kreadout _ x6 x7 shapeCasts_S1x2_S1x2 broadcasts_S1x2_S4000x2 bitsLt_bf16_f32

/-- Entry `j` of the first body's block is entry `i` of the layer of the tall arrays, when the tall blocks are the tall
    arrays read `off` rows down, the small blocks are the small arrays, and `i` is `j` moved down by `off` rows. -/
theorem pay0_at (x0 x1 : Vec Ideal S4000x4 .f32) (x2 : Vec Ideal S4000x1 .f32) (x3 x4 : Vec Ideal S4x128 .f32)
    (x5 : Vec Ideal S1x128 .f32)
    (A0 A1 : S100000x4.Idx → EReal) (A2 : S100000x1.Idx → EReal) (A3 A4 : S4x128.Idx → EReal) (A5 : S1x128.Idx → EReal) (off : ℕ)
    (h0 : ∀ (y : S4000x4.Idx) (i : S100000x4.Idx), (i 0).val = off + (y 0).val → (i 1).val = (y 1).val → x0 y = A0 i)
    (h1 : ∀ (y : S4000x4.Idx) (i : S100000x4.Idx), (i 0).val = off + (y 0).val → (i 1).val = (y 1).val → x1 y = A1 i)
    (h2 : ∀ (y : S4000x1.Idx) (i : S100000x1.Idx), (i 0).val = off + (y 0).val → (i 1).val = (y 1).val → x2 y = A2 i)
    (h3 : x3 = A3) (h4 : x4 = A4) (h5 : x5 = A5)
    (j : S4000x128.Idx) (i : S100000x128.Idx) (hi0 : (i 0).val = off + (j 0).val) (hi1 : (i 1).val = (j 1).val) :
    k0_pay1 (F := Ideal) x0 x1 x2 x3 x4 x5 j = sageArr A0 A1 A2 A3 A4 (unrow A5) i := by
  subst h3 h4 h5
  rw [pay0_eq]
  obtain ⟨p, q, rfl⟩ : ∃ (p : Fin 4000) (q : Fin 128), j = ix2 p q := ⟨j 0, j 1, eq_ix2 j⟩
  obtain ⟨p', q', rfl⟩ : ∃ (p' : Fin 100000) (q' : Fin 128), i = ix2 p' q' := ⟨i 0, i 1, eq_ix2 i⟩
  obtain rfl : q' = q := Fin.ext hi1
  exact sageArr_rows x0 x1 x2 A0 A1 A2 x3 x4 (unrow x5) p p' (fun k => h0 (ix2 p k) (ix2 p' k) hi0 rfl)
    (fun k => h1 (ix2 p k) (ix2 p' k) hi0 rfl) (h2 (ix2 p (0 : Fin 1)) (ix2 p' (0 : Fin 1)) hi0 rfl) q'

/-- The same for the second body. -/
theorem pay1_at (x0 : Vec Ideal S4000x128 .bf16) (x1 : Vec Ideal S4000x128 .f32) (x2 : Vec Ideal S4000x1 .f32)
    (x3 x4 : Vec Ideal S128x128 .f32) (x5 : Vec Ideal S1x128 .f32) (x6 : Vec Ideal S128x2 .f32) (x7 : Vec Ideal S1x2 .f32)
    (A0 A1 : S100000x128.Idx → EReal) (A2 : S100000x1.Idx → EReal) (A3 A4 : S128x128.Idx → EReal) (A5 : S1x128.Idx → EReal)
    (A6 : S128x2.Idx → EReal) (A7 : S1x2.Idx → EReal) (off : ℕ)
    (h0 : ∀ (y : S4000x128.Idx) (i : S100000x128.Idx), (i 0).val = off + (y 0).val → (i 1).val = (y 1).val → x0 y = A0 i)
    (h1 : ∀ (y : S4000x128.Idx) (i : S100000x128.Idx), (i 0).val = off + (y 0).val → (i 1).val = (y 1).val → x1 y = A1 i)
    (h2 : ∀ (y : S4000x1.Idx) (i : S100000x1.Idx), (i 0).val = off + (y 0).val → (i 1).val = (y 1).val → x2 y = A2 i)
    (h3 : x3 = A3) (h4 : x4 = A4) (h5 : x5 = A5) (h6 : x6 = A6) (h7 : x7 = A7)
    (j : S4000x2.Idx) (i : S100000x2.Idx) (hi0 : (i 0).val = off + (j 0).val) (hi1 : (i 1).val = (j 1).val) :
    k1_pay1 (F := Ideal) x0 x1 x2 x3 x4 x5 x6 x7 j = layerArr (sageArr A0 A1 A2 A3 A4 (unrow A5)) A6 (unrow A7) i := by
  subst h3 h4 h5 h6 h7
  rw [pay1_eq]
  obtain ⟨p, q, rfl⟩ : ∃ (p : Fin 4000) (q : Fin 2), j = ix2 p q := ⟨j 0, j 1, eq_ix2 j⟩
  obtain ⟨p', q', rfl⟩ : ∃ (p' : Fin 100000) (q' : Fin 2), i = ix2 p' q' := ⟨i 0, i 1, eq_ix2 i⟩
  obtain rfl : q' = q := Fin.ext hi1
  exact readout_rows x0 x1 x2 A0 A1 A2 x3 x4 (unrow x5) x6 (unrow x7) p p' (fun k => h0 (ix2 p k) (ix2 p' k) hi0 rfl)
    (fun k => h1 (ix2 p k) (ix2 p' k) hi0 rfl) (h2 (ix2 p (0 : Fin 1)) (ix2 p' (0 : Fin 1)) hi0 rfl) q'

end Cert.KernelIdeal.SageValue

end
-- ==== Proof.SageRegion0.lean ====
/-
  Region 0 of the kernel's program, from blocks to the whole array, at the ideal values.

  The pallas_call runs its body at 25 grid points; at point `t` every tall operand's block is rows
  `4000 t, …, 4000 t + 3999` of its array and every small operand's block is its whole array (the printed index maps,
  decided over the 25 points).  The body's stored block is a row-local function of its loaded blocks (SagePayload), so
  what point `t` writes back is block `t` of ONE function of the arrays as the region finds them — the rectified graph layer `layer0` —, the 25 blocks tile the 100000 × 128 result, and so the result array ends holding that function.
  Stated at ANY region-entry contents `V`: the run instantiates it.
-/
import proofs.«118429_j11905649344801_2_alg».proof.Proof.Gen.KernelIdeal.Frame
import proofs.«118429_j11905649344801_2_alg».proof.Proof.SagePayload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SageValue

open Cert.KernelIdeal Cert.KernelIdeal.Gen Cert.DenseRow Cert.RowBias Cert.SageLayer

variable (V : (c : Dev nD) → (b : Ref sig .tc) → Buf (Elt Ideal) ((c : Thread nD τ).loc b))

/-- The offsets `(0, 0)` of a whole-buffer access are the zero function. -/
theorem hz0 : (![0, 0] : Fin 2 → Nat) = fun _ => 0 := funext fun a => by fin_cases a <;> rfl

/-- The printed index maps over the grid: a tall operand's block index is the point's number, a small operand's is zero. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Input window 0's block at point `t` is rows `4000 t, …, 4000 t + 3999` of its array. -/
theorem iblk0_0_at (c : Dev nD) (t : Fin cfg0.N) (y : S4000x4.Idx) (i : S100000x4.Idx)
    (h0 : (i 0).val = 4000 * t.val + (y 0).val) (h1 : (i 1).val = (y 1).val) :
    (iblk0 V c 0 t : Vec Ideal S4000x4 .f32) y = (V c main_arg0 : S100000x4.Idx → EReal) i := by
  obtain ⟨e0, e1, -⟩ := idx0 t
  unfold iblk0
  rw [View.read_apply]
  show (V c main_arg0 : S100000x4.Idx → EReal) _ = V c main_arg0 i
  congr 1
  funext a
  apply Fin.ext
  match a with
  | ⟨0, _⟩ => show win0_0.index t (0 : Fin 2) * 4000 + 1 * (y 0).val = (i 0).val; omega
  | ⟨1, _⟩ => show win0_0.index t (1 : Fin 2) * 4 + 1 * (y 1).val = (i 1).val; omega

/-- Input window 1's block at point `t` is rows `4000 t, …, 4000 t + 3999` of its array. -/
theorem iblk0_1_at (c : Dev nD) (t : Fin cfg0.N) (y : S4000x4.Idx) (i : S100000x4.Idx)
    (h0 : (i 0).val = 4000 * t.val + (y 0).val) (h1 : (i 1).val = (y 1).val) :
    (iblk0 V c 1 t : Vec Ideal S4000x4 .f32) y = (V c main_v18 : S100000x4.Idx → EReal) i := by
  obtain ⟨-, -, e0, e1, -⟩ := idx0 t
  unfold iblk0
  rw [View.read_apply]
  show (V c main_v18 : S100000x4.Idx → EReal) _ = V c main_v18 i
  congr 1
  funext a
  apply Fin.ext
  match a with
  | ⟨0, _⟩ => show win0_1.index t (0 : Fin 2) * 4000 + 1 * (y 0).val = (i 0).val; omega
  | ⟨1, _⟩ => show win0_1.index t (1 : Fin 2) * 4 + 1 * (y 1).val = (i 1).val; omega

/-- Input window 2's block at point `t` is rows `4000 t, …, 4000 t + 3999` of its array. -/
theorem iblk0_2_at (c : Dev nD) (t : Fin cfg0.N) (y : S4000x1.Idx) (i : S100000x1.Idx)
    (h0 : (i 0).val = 4000 * t.val + (y 0).val) (h1 : (i 1).val = (y 1).val) :
    (iblk0 V c 2 t : Vec Ideal S4000x1 .f32) y = (V c main_v8 : S100000x1.Idx → EReal) i := by
  obtain ⟨-, -, -, -, e0, e1, -⟩ := idx0 t
  unfold iblk0
  rw [View.read_apply]
  show (V c main_v8 : S100000x1.Idx → EReal) _ = V c main_v8 i
  congr 1
  funext a
  apply Fin.ext
  match a with
  | ⟨0, _⟩ => show win0_2.index t (0 : Fin 2) * 4000 + 1 * (y 0).val = (i 0).val; omega
  | ⟨1, _⟩ => show win0_2.index t (1 : Fin 2) * 1 + 1 * (y 1).val = (i 1).val; omega

/-- Input window 3's block at every point is its whole array. -/
theorem iblk0_3_eq (c : Dev nD) (t : Fin cfg0.N) :
    (iblk0 V c 3 t : Vec Ideal S4x128 .f32) = (V c main_arg3 : S4x128.Idx → EReal) := by
  obtain ⟨-, -, -, -, -, -, e0, e1, -⟩ := idx0 t
  funext y
  unfold iblk0
  rw [View.read_apply]
  show (V c main_arg3 : S4x128.Idx → EReal) _ = V c main_arg3 y
  congr 1
  funext a
  apply Fin.ext
  match a with
  | ⟨0, _⟩ => show win0_3.index t (0 : Fin 2) * 4 + 1 * (y 0).val = (y 0).val; omega
  | ⟨1, _⟩ => show win0_3.index t (1 : Fin 2) * 128 + 1 * (y 1).val = (y 1).val; omega

/-- Input window 4's block at every point is its whole array. -/
theorem iblk0_4_eq (c : Dev nD) (t : Fin cfg0.N) :
    (iblk0 V c 4 t : Vec Ideal S4x128 .f32) = (V c main_arg4 : S4x128.Idx → EReal) := by
  obtain ⟨-, -, -, -, -, -, -, -, e0, e1, -⟩ := idx0 t
  funext y
  unfold iblk0
  rw [View.read_apply]
  show (V c main_arg4 : S4x128.Idx → EReal) _ = V c main_arg4 y
  congr 1
  funext a
  apply Fin.ext
  match a with
  | ⟨0, _⟩ => show win0_4.index t (0 : Fin 2) * 4 + 1 * (y 0).val = (y 0).val; omega
  | ⟨1, _⟩ => show win0_4.index t (1 : Fin 2) * 128 + 1 * (y 1).val = (y 1).val; omega

/-- Input window 5's block at every point is its whole array. -/
theorem iblk0_5_eq (c : Dev nD) (t : Fin cfg0.N) :
    (iblk0 V c 5 t : Vec Ideal S1x128 .f32) = (V c main_v19 : S1x128.Idx → EReal) := by
  obtain ⟨-, -, -, -, -, -, -, -, -, -, e0, e1, -⟩ := idx0 t
  funext y
  unfold iblk0
  rw [View.read_apply]
  show (V c main_v19 : S1x128.Idx → EReal) _ = V c main_v19 y
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The result array's contents after the region, as one function of the arrays the region finds. -/
abbrev layer0 (c : Dev nD) : S100000x128.Idx → EReal :=
  sageArr (V c main_arg0) (V c main_v18) (V c main_v8) (V c main_arg3) (V c main_arg4) (unrow (V c main_v19))

set_option maxHeartbeats 2000000 in
/-- What point `t` writes back is block `t` of `layer0`. -/
theorem flushed0 (c : Dev nD) (t : Fin cfg0.N) :
    (dat0 V c).flushed 6 t = ((cfg0.win 6).blk t).view.read (Elt Ideal) (layer0 V c) := by
  show (cfg0.win 6).cut (grid0.coords t) ((dat0 V c).after 6 t) = _
  rw [after0_6]
  unfold out0_6
  rw [View.canon_unit_zero hz0]
  simp only [View.ld_unit_zero (S := S4000x4) hz0, View.ld_unit_zero (S := S4000x1) hz0, View.ld_unit_zero (S := S4x128) hz0, View.ld_unit_zero (S := S1x128) hz0]
  obtain ⟨-, -, -, -, -, -, -, -, -, -, -, -, e0, e1⟩ := idx0 t
  funext j
  rw [View.read_apply]
  exact pay0_at (iblk0 V c 0 t) (iblk0 V c 1 t) (iblk0 V c 2 t) (iblk0 V c 3 t) (iblk0 V c 4 t) (iblk0 V c 5 t)
    (V c main_arg0) (V c main_v18) (V c main_v8) (V c main_arg3) (V c main_arg4) (V c main_v19) (4000 * t.val)
    (iblk0_0_at V c t) (iblk0_1_at V c t) (iblk0_2_at V c t) (iblk0_3_eq V c t) (iblk0_4_eq V c t) (iblk0_5_eq V c t)
    j (((cfg0.win 6).blk t).view.emb j)
    (by show win0_6.index t (0 : Fin 2) * 4000 + 1 * (j 0).val = 4000 * t.val + (j 0).val; omega)
    (by show win0_6.index t (1 : Fin 2) * 128 + 1 * (j 1).val = (j 1).val; omega)

/-- An index of the result array is in point `t`'s block iff each coordinate is in the block's range on its axis. -/
theorem mem_blk0 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v20).slice (win0_6.rect t)).set ↔ _
  rw [View.set_slice_whole, Rect.mem_set_unit]
  exact Iff.rfl

/-- Row `r` of the result is in the block of point `r / 4000`: the 25 blocks cover the array. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨-, -, -, -, -, -, -, -, -, -, -, -, e0, e1⟩ := idx0 t
  refine ⟨t, flush0_6 t, ?_⟩
  rw [mem_blk0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- The result array after the region. -/
theorem final0 (c : Dev nD) : (dat0 V c).arrAt 6 cfg0.N = layer0 V c :=
  (dat0 V c).arrAt_eq_of_cover 6 (layer0 V c) (fun t _ => flushed0 V c t) (fun i => cover0 i)

end Cert.KernelIdeal.SageValue

end
-- ==== Proof.SageRegion1.lean ====
/-
  Region 1 of the kernel's program, from blocks to the whole array, at the ideal values.

  The pallas_call runs its body at 25 grid points; at point `t` every tall operand's block is rows
  `4000 t, …, 4000 t + 3999` of its array and every small operand's block is its whole array (the printed index maps,
  decided over the 25 points).  The body's stored block is a row-local function of its loaded blocks (SagePayload), so
  what point `t` writes back is block `t` of ONE function of the arrays as the region finds them — the read-out of the rectified graph layer `layer1` —, the 25 blocks tile the 100000 × 2 result, and so the result array ends holding that function.
  Stated at ANY region-entry contents `V`: the run instantiates it.
-/
import proofs.«118429_j11905649344801_2_alg».proof.Proof.Gen.KernelIdeal.Frame
import proofs.«118429_j11905649344801_2_alg».proof.Proof.SagePayload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.SageValue

open Cert.KernelIdeal Cert.KernelIdeal.Gen Cert.DenseRow Cert.RowBias Cert.SageLayer

variable (V : (c : Dev nD) → (b : Ref sig .tc) → Buf (Elt Ideal) ((c : Thread nD τ).loc b))

/-- The offsets `(0, 0)` of a whole-buffer access are the zero function. -/
theorem hz1 : (![0, 0] : Fin 2 → Nat) = fun _ => 0 := funext fun a => by fin_cases a <;> rfl

/-- The printed index maps over the grid: a tall operand's block index is the point's number, a small operand's is zero. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- Input window 0's block at point `t` is rows `4000 t, …, 4000 t + 3999` of its array. -/
theorem iblk1_0_at (c : Dev nD) (t : Fin cfg1.N) (y : S4000x128.Idx) (i : S100000x128.Idx)
    (h0 : (i 0).val = 4000 * t.val + (y 0).val) (h1 : (i 1).val = (y 1).val) :
    (iblk1 V c 0 t : Vec Ideal S4000x128 .bf16) y = (V c main_v20 : S100000x128.Idx → EReal) i := by
  obtain ⟨e0, e1, -⟩ := idx1 t
  unfold iblk1
  rw [View.read_apply]
  show (V c main_v20 : S100000x128.Idx → EReal) _ = V c main_v20 i
  congr 1
  funext a
  apply Fin.ext
  match a with
  | ⟨0, _⟩ => show win1_0.index t (0 : Fin 2) * 4000 + 1 * (y 0).val = (i 0).val; omega
  | ⟨1, _⟩ => show win1_0.index t (1 : Fin 2) * 128 + 1 * (y 1).val = (i 1).val; omega

/-- Input window 1's block at point `t` is rows `4000 t, …, 4000 t + 3999` of its array. -/
theorem iblk1_1_at (c : Dev nD) (t : Fin cfg1.N) (y : S4000x128.Idx) (i : S100000x128.Idx)
    (h0 : (i 0).val = 4000 * t.val + (y 0).val) (h1 : (i 1).val = (y 1).val) :
    (iblk1 V c 1 t : Vec Ideal S4000x128 .f32) y = (V c main_v31 : S100000x128.Idx → EReal) i := by
  obtain ⟨-, -, e0, e1, -⟩ := idx1 t
  unfold iblk1
  rw [View.read_apply]
  show (V c main_v31 : S100000x128.Idx → EReal) _ = V c main_v31 i
  congr 1
  funext a
  apply Fin.ext
  match a with
  | ⟨0, _⟩ => show win1_1.index t (0 : Fin 2) * 4000 + 1 * (y 0).val = (i 0).val; omega
  | ⟨1, _⟩ => show win1_1.index t (1 : Fin 2) * 128 + 1 * (y 1).val = (i 1).val; omega

/-- Input window 2's block at point `t` is rows `4000 t, …, 4000 t + 3999` of its array. -/
theorem iblk1_2_at (c : Dev nD) (t : Fin cfg1.N) (y : S4000x1.Idx) (i : S100000x1.Idx)
    (h0 : (i 0).val = 4000 * t.val + (y 0).val) (h1 : (i 1).val = (y 1).val) :
    (iblk1 V c 2 t : Vec Ideal S4000x1 .f32) y = (V c main_v8 : S100000x1.Idx → EReal) i := by
  obtain ⟨-, -, -, -, e0, e1, -⟩ := idx1 t
  unfold iblk1
  rw [View.read_apply]
  show (V c main_v8 : S100000x1.Idx → EReal) _ = V c main_v8 i
  congr 1
  funext a
  apply Fin.ext
  match a with
  | ⟨0, _⟩ => show win1_2.index t (0 : Fin 2) * 4000 + 1 * (y 0).val = (i 0).val; omega
  | ⟨1, _⟩ => show win1_2.index t (1 : Fin 2) * 1 + 1 * (y 1).val = (i 1).val; omega

/-- Input window 3's block at every point is its whole array. -/
theorem iblk1_3_eq (c : Dev nD) (t : Fin cfg1.N) :
    (iblk1 V c 3 t : Vec Ideal S128x128 .f32) = (V c main_arg6 : S128x128.Idx → EReal) := by
  obtain ⟨-, -, -, -, -, -, e0, e1, -⟩ := idx1 t
  funext y
  unfold iblk1
  rw [View.read_apply]
  show (V c main_arg6 : S128x128.Idx → EReal) _ = V c main_arg6 y
  congr 1
  funext a
  apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- Input window 4's block at every point is its whole array. -/
theorem iblk1_4_eq (c : Dev nD) (t : Fin cfg1.N) :
    (iblk1 V c 4 t : Vec Ideal S128x128 .f32) = (V c main_arg7 : S128x128.Idx → EReal) := by
  obtain ⟨-, -, -, -, -, -, -, -, e0, e1, -⟩ := idx1 t
  funext y
  unfold iblk1
  rw [View.read_apply]
  show (V c main_arg7 : S128x128.Idx → EReal) _ = V c main_arg7 y
  congr 1
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Input window 5's block at every point is its whole array. -/
theorem iblk1_5_eq (c : Dev nD) (t : Fin cfg1.N) :
    (iblk1 V c 5 t : Vec Ideal S1x128 .f32) = (V c main_v32 : S1x128.Idx → EReal) := by
  obtain ⟨-, -, -, -, -, -, -, -, -, -, e0, e1, -⟩ := idx1 t
  funext y
  unfold iblk1
  rw [View.read_apply]
  show (V c main_v32 : S1x128.Idx → EReal) _ = V c main_v32 y
  congr 1
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Input window 6's block at every point is its whole array. -/
theorem iblk1_6_eq (c : Dev nD) (t : Fin cfg1.N) :
    (iblk1 V c 6 t : Vec Ideal S128x2 .f32) = (V c main_arg9 : S128x2.Idx → EReal) := by
  obtain ⟨-, -, -, -, -, -, -, -, -, -, -, -, e0, e1, -⟩ := idx1 t
  funext y
  unfold iblk1
  rw [View.read_apply]
  show (V c main_arg9 : S128x2.Idx → EReal) _ = V c main_arg9 y
  congr 1
  funext a
  apply Fin.ext
  match a with
  | ⟨0, _⟩ => show win1_6.index t (0 : Fin 2) * 128 + 1 * (y 0).val = (y 0).val; omega
  | ⟨1, _⟩ => show win1_6.index t (1 : Fin 2) * 2 + 1 * (y 1).val = (y 1).val; omega

/-- Input window 7's block at every point is its whole array. -/
theorem iblk1_7_eq (c : Dev nD) (t : Fin cfg1.N) :
    (iblk1 V c 7 t : Vec Ideal S1x2 .f32) = (V c main_v33 : S1x2.Idx → EReal) := by
  obtain ⟨-, -, -, -, -, -, -, -, -, -, -, -, -, -, e0, e1, -⟩ := idx1 t
  funext y
  unfold iblk1
  rw [View.read_apply]
  show (V c main_v33 : S1x2.Idx → EReal) _ = V c main_v33 y
  congr 1
  funext a
  apply Fin.ext
  match a with
  | ⟨0, _⟩ => show win1_7.index t (0 : Fin 2) * 1 + 1 * (y 0).val = (y 0).val; omega
  | ⟨1, _⟩ => show win1_7.index t (1 : Fin 2) * 2 + 1 * (y 1).val = (y 1).val; omega

/-- The result array's contents after the region, as one function of the arrays the region finds. -/
abbrev layer1 (c : Dev nD) : S100000x2.Idx → EReal :=
  layerArr (sageArr (V c main_v20) (V c main_v31) (V c main_v8) (V c main_arg6) (V c main_arg7) (unrow (V c main_v32))) (V c main_arg9) (unrow (V c main_v33))

set_option maxHeartbeats 2000000 in
/-- What point `t` writes back is block `t` of `layer1`. -/
theorem flushed1 (c : Dev nD) (t : Fin cfg1.N) :
    (dat1 V c).flushed 8 t = ((cfg1.win 8).blk t).view.read (Elt Ideal) (layer1 V c) := by
  show (cfg1.win 8).cut (grid1.coords t) ((dat1 V c).after 8 t) = _
  rw [after1_8]
  unfold out1_8
  rw [View.canon_unit_zero hz1]
  simp only [View.ld_unit_zero (S := S4000x128) hz1, View.ld_unit_zero (S := S4000x1) hz1, View.ld_unit_zero (S := S128x128) hz1, View.ld_unit_zero (S := S1x128) hz1, View.ld_unit_zero (S := S128x2) hz1, View.ld_unit_zero (S := S1x2) hz1]
  obtain ⟨-, -, -, -, -, -, -, -, -, -, -, -, -, -, -, -, e0, e1⟩ := idx1 t
  funext j
  rw [View.read_apply]
  exact pay1_at (iblk1 V c 0 t) (iblk1 V c 1 t) (iblk1 V c 2 t) (iblk1 V c 3 t) (iblk1 V c 4 t) (iblk1 V c 5 t) (iblk1 V c 6 t) (iblk1 V c 7 t)
    (V c main_v20) (V c main_v31) (V c main_v8) (V c main_arg6) (V c main_arg7) (V c main_v32) (V c main_arg9) (V c main_v33) (4000 * t.val)
    (iblk1_0_at V c t) (iblk1_1_at V c t) (iblk1_2_at V c t) (iblk1_3_eq V c t) (iblk1_4_eq V c t) (iblk1_5_eq V c t) (iblk1_6_eq V c t) (iblk1_7_eq V c t)
    j (((cfg1.win 8).blk t).view.emb j)
    (by show win1_8.index t (0 : Fin 2) * 4000 + 1 * (j 0).val = 4000 * t.val + (j 0).val; omega)
    (by show win1_8.index t (1 : Fin 2) * 2 + 1 * (j 1).val = (j 1).val; omega)

/-- An index of the result array is in point `t`'s block iff each coordinate is in the block's range on its axis. -/
theorem mem_blk1 (t : Fin cfg1.N) (i : S100000x2.Idx) :
    i ∈ ((cfg1.win 8).blk t).view.set ↔ ∀ a : Fin 2, win1_8.index t a * S4000x2.size a ≤ (i a).val ∧ (i a).val < win1_8.index t a * S4000x2.size a + S4000x2.size a := by
  show i ∈ ((View.whole main_v34).slice (win1_8.rect t)).set ↔ _
  rw [View.set_slice_whole, Rect.mem_set_unit]
  exact Iff.rfl

/-- Row `r` of the result is in the block of point `r / 4000`: the 25 blocks cover the array. -/
theorem cover1 (i : S100000x2.Idx) :
    ∃ t : Fin cfg1.N, (cfg1.win 8).flush t = true ∧ i ∈ ((cfg1.win 8).blk t).view.set := by
  have hi0 : (i 0).val < 100000 := (i 0).isLt
  have hi1 : (i 1).val < 2 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, -, -, -, -, -, -, -, -, -, -, -, -, e0, e1⟩ := idx1 t
  refine ⟨t, flush1_8 t, ?_⟩
  rw [mem_blk1]
  intro a
  match a with
  | ⟨0, _⟩ => show win1_8.index t (0 : Fin 2) * 4000 ≤ (i 0).val ∧ (i 0).val < win1_8.index t (0 : Fin 2) * 4000 + 4000; omega
  | ⟨1, _⟩ => show win1_8.index t (1 : Fin 2) * 2 ≤ (i 1).val ∧ (i 1).val < win1_8.index t (1 : Fin 2) * 2 + 2; omega

/-- The result array after the region. -/
theorem final1 (c : Dev nD) : (dat1 V c).arrAt 8 cfg1.N = layer1 V c :=
  (dat1 V c).arrAt_eq_of_cover 8 (layer1 V c) (fun t _ => flushed1 V c t) (fun i => cover1 i)

end Cert.KernelIdeal.SageValue

end
-- ==== Proof.SageSpec.lean ====
/-
  The result as ONE function of the eleven arguments, at the ideal values.

  With `src`, `dst` the edge lists, `deg v` the number of edges into node `v` (a sum of ones scattered by `dst`) and
  `D v = max (deg v, 1)`:
      agg₁ v   = ∑ over edges e into v of  feats (src e)            (a gather by `src`, then a scatter-add by `dst`)
      h₁ v     = max ( feats v · ws₁ + (agg₁ v · (1 / D v)) · wn₁ + b₁ , 0 )
      agg₂ v   = ∑ over edges e into v of  h₁ (src e)
      h₂ v     = max ( h₁ v · ws₂ + (agg₂ v · (1 / D v)) · wn₂ + b₂ , 0 )
      logits v = h₂ v · w_out + b_out.
  The gather, the scatter-add and the index normalisation (a negative index moved up by the node count) are kept as the
  host operations they are — both programs apply the same ones to the same operands, and nothing here opens them.  The
  two layers are LibSageLayer's `sageArr` at 100000 rows, the read-out LibDenseRow's `layerArr`.
-/
import proofs.«118429_j11905649344801_2_alg».proof.Proof.Gen.KernelIdeal
import proofs.«118429_j11905649344801_2_alg».proof.Proof.LibSageLayer

noncomputable section

namespace Cert.KernelIdeal.SageValue

open Idealize.ShloMosaic Cert.KernelIdeal Cert.KernelIdeal.Gen Cert.DenseRow Cert.SageLayer

/-- An edge list: one 32-bit node index per edge. -/
abbrev Edges : Type := (⟨S1600000, .i32⟩ : BufTy).Contents (Elt Ideal)

/-- The source indices as a gather's index column: a negative index is moved up by the node count first. -/
def srcIdx (src : Edges) : (⟨S1600000x1, .i32⟩ : BufTy).Contents (Elt Ideal) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The destination indices as a scatter's index column. -/
def dstIdx (dst : Edges) : (⟨S1600000x1, .i32⟩ : BufTy).Contents (Elt Ideal) :=
  broadcastInDim S1600000x1 ![0] bcast_S1600000_S1600000x1_0 dst

/-- The vector of ones, one per node. -/
def onesN : FVec Ideal S100000 .f32 := broadcastInDim S100000 ![] bcast_S_S100000 (constant S_ .f32 0x3F800000#32)

/-- `D`: each node's number of incoming edges, raised to at least one. -/
def degMax (dst : Edges) : FVec Ideal S100000 .f32 :=
  maximumf (Host.scatterAdd scatter_S100000_S1600000x1_S1600000_n_0_0_1
      (broadcastInDim S100000 ![] bcast_S_S100000 (constant S_ .f32 0x00000000#32)) (dstIdx dst)
      (broadcastInDim S1600000 ![] bcast_S_S1600000 (constant S_ .f32 0x3F800000#32))) onesN

/-- The column of reciprocals `1 / D`. -/
def invCol (dst : Edges) : FVec Ideal S100000x1 .f32 :=
  shapeCast S100000x1 (Host.divf onesN (degMax dst)) shapeCasts_S100000_S100000x1

/-- The sums of the neighbours' rows of a 4-column table. -/
def agg4 (x : FVec Ideal S100000x4 .f32) (src dst : Edges) : FVec Ideal S100000x4 .f32 :=
  Host.scatterAdd scatter_S100000x4_S1600000x1_S1600000x4_1_0_0_1
    (broadcastInDim S100000x4 ![] bcast_S_S100000x4 (constant S_ .f32 0x00000000#32)) (dstIdx dst)
    (Host.gather gather_S100000x4_S1600000x1_S1600000x4_1_0_n_n_0_1_14 x (srcIdx src))

/-- The sums of the neighbours' rows of a 128-column table. -/
def agg128 (h : FVec Ideal S100000x128 .f32) (src dst : Edges) : FVec Ideal S100000x128 .f32 :=
  Host.scatterAdd scatter_S100000x128_S1600000x1_S1600000x128_1_0_0_1
    (broadcastInDim S100000x128 ![] bcast_S_S100000x128 (constant S_ .f32 0x00000000#32)) (dstIdx dst)
    (Host.gather gather_S100000x128_S1600000x1_S1600000x128_1_0_n_n_0_1_1128 h (srcIdx src))

/-- The first layer's rectified rows. -/
def hidden1 (feats : FVec Ideal S100000x4 .f32) (src dst : Edges) (ws1 wn1 : FVec Ideal S4x128 .f32) (b1 : FVec Ideal S128 .f32) :
    FVec Ideal S100000x128 .f32 :=
  sageArr feats (agg4 feats src dst) (invCol dst) ws1 wn1 b1

/-- The second layer's rectified rows. -/
def hidden2 (feats : FVec Ideal S100000x4 .f32) (src dst : Edges) (ws1 wn1 : FVec Ideal S4x128 .f32) (b1 : FVec Ideal S128 .f32)
    (ws2 wn2 : FVec Ideal S128x128 .f32) (b2 : FVec Ideal S128 .f32) : FVec Ideal S100000x128 .f32 :=
  sageArr (hidden1 feats src dst ws1 wn1 b1) (agg128 (hidden1 feats src dst ws1 wn1 b1) src dst) (invCol dst) ws2 wn2 b2

/-- The result. -/
def logits (feats : FVec Ideal S100000x4 .f32) (src dst : Edges) (ws1 wn1 : FVec Ideal S4x128 .f32) (b1 : FVec Ideal S128 .f32)
    (ws2 wn2 : FVec Ideal S128x128 .f32) (b2 : FVec Ideal S128 .f32) (wo : FVec Ideal S128x2 .f32) (bo : FVec Ideal S2 .f32) :
    FVec Ideal S100000x2 .f32 :=
  layerArr (hidden2 feats src dst ws1 wn1 b1 ws2 wn2 b2) wo bo

end Cert.KernelIdeal.SageValue

end
-- ==== Proof.SageHost.lean ====
/-
  The buffers each pallas_call finds, as functions of the eleven arguments, and the program's result.

  Before the first pallas_call the host computes each node's count of incoming edges, raises it to at least one, takes
  its reciprocal and lays it out as a column; gathers the feature rows by source and adds them up by destination; and
  reshapes the first bias to one row.  So the first pallas_call finds exactly the operands of the first layer
  (`hidden1`), and its result array ends holding that layer (SageRegion0).  Between the two the host gathers that
  array's rows by source (a change of float format, the identity here), adds them up by destination, and reshapes the
  other two biases to rows; the second pallas_call reads the first's result array, those sums and the same column of
  reciprocals, so its result array — the program's result — ends holding `logits` of the arguments (SageRegion1).
  No argument is written by any segment.
-/
import proofs.«118429_j11905649344801_2_alg».proof.Proof.SageRegion0
import proofs.«118429_j11905649344801_2_alg».proof.Proof.SageRegion1
import proofs.«118429_j11905649344801_2_alg».proof.Proof.SageSpec
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.SageValue

open Cert.KernelIdeal Cert.KernelIdeal.Gen Cert.DenseRow Cert.RowBias Cert.SageLayer

variable (m : (ℓ : Loc nD τ sig) → Buf (Elt Ideal) ℓ) (ρ : Dev nD → PrngReg)

/-! ## What the first pallas_call finds -/

theorem V1_arg0 (c : Dev nD) : V1 m ρ c main_arg0 = m ((c : Thread nD τ).loc main_arg0) := by
  show StableHlo.after hostOps0 (W0 m ρ c) (Proc.devRef .tc main_arg0) = _
  dsimp only [hostOps0]
  after_results

theorem V1_arg3 (c : Dev nD) : V1 m ρ c main_arg3 = m ((c : Thread nD τ).loc main_arg3) := by
  show StableHlo.after hostOps0 (W0 m ρ c) (Proc.devRef .tc main_arg3) = _
  dsimp only [hostOps0]
  after_results

theorem V1_arg4 (c : Dev nD) : V1 m ρ c main_arg4 = m ((c : Thread nD τ).loc main_arg4) := by
  show StableHlo.after hostOps0 (W0 m ρ c) (Proc.devRef .tc main_arg4) = _
  dsimp only [hostOps0]
  after_results

set_option maxHeartbeats 4000000 in
/-- The neighbour sums of the feature rows. -/
theorem V1_v18 (c : Dev nD) : V1 m ρ c main_v18 = agg4 (m ((c : Thread nD τ).loc main_arg0)) (m ((c : Thread nD τ).loc main_arg1)) (m ((c : Thread nD τ).loc main_arg2)) := by
  show StableHlo.after hostOps0 (W0 m ρ c) (Proc.devRef .tc main_v18) = _
  dsimp only [hostOps0]
  after_results
  rfl

/-- The column of reciprocal counts. -/
theorem V1_v8 (c : Dev nD) : V1 m ρ c main_v8 = invCol (m ((c : Thread nD τ).loc main_arg2)) := by
  show StableHlo.after hostOps0 (W0 m ρ c) (Proc.devRef .tc main_v8) = _
  dsimp only [hostOps0]
  after_results
  rfl

/-- The first bias as one row. -/
theorem V1_v19 (c : Dev nD) : V1 m ρ c main_v19 = shapeCast S1x128 (m ((c : Thread nD τ).loc main_arg5)) shapeCasts_S128_S1x128 := by
  show StableHlo.after hostOps0 (W0 m ρ c) (Proc.devRef .tc main_v19) = _
  dsimp only [hostOps0]
  after_results
  rfl

/-- The first pallas_call's result array ends holding the first layer of the arguments. -/
theorem layer0_V1 (c : Dev nD) : layer0 (V1 m ρ) c = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show sageArr (V1 m ρ c main_arg0) (V1 m ρ c main_v18) (V1 m ρ c main_v8) (V1 m ρ c main_arg3) (V1 m ρ c main_arg4)
      (unrow (V1 m ρ c main_v19)) = _
  rw [V1_arg0, V1_v18, V1_v8, V1_arg3, V1_arg4, V1_v19, unrow_cast]
  rfl

/-! ## The contents between the two pallas_calls -/

theorem W2_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  dsimp only [hostOps0]
  after_results

theorem W2_arg2 (c : Dev nD) : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  dsimp only [hostOps0]
  after_results

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  dsimp only [hostOps0]
  after_results

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  dsimp only [hostOps0]
  after_results

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  dsimp only [hostOps0]
  after_results

theorem W2_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  dsimp only [hostOps0]
  after_results

theorem W2_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  dsimp only [hostOps0]
  after_results

/-- The first pallas_call's result array. -/
theorem W2_v20 (c : Dev nD) : W2 m ρ c (Proc.devRef .tc main_v20) = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W2_arr m ρ c 6).trans ((final0 (V1 m ρ) c).trans (layer0_V1 m ρ c))

/-- The column of reciprocal counts, which the first pallas_call only reads. -/
theorem W2_v8 (c : Dev nD) : W2 m ρ c (Proc.devRef .tc main_v8) = invCol (m ((c : Thread nD τ).loc main_arg2)) :=
  (W2_arr m ρ c 2).trans ((((dat0 (V1 m ρ) c).arrAt_in 2 rfl _).trans (A_eq0 (V1 m ρ) c 2)).trans (V1_v8 m ρ c))

/-! ## What the second pallas_call finds -/

theorem V3_v20 (c : Dev nD) : V3 m ρ c main_v20 = hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v20) = _
  dsimp only [hostOps1]
  after_results
  exact W2_v20 m ρ c

theorem V3_v8 (c : Dev nD) : V3 m ρ c main_v8 = invCol (m ((c : Thread nD τ).loc main_arg2)) := by
  show StableHlo.after hostOps1 (W2 m ρ c) (Proc.devRef .tc main_v8) = _
  dsimp only [hostOps1]
  after_results
  exact W2_v8 m ρ c

set_option maxHeartbeats 4000000 in
/-- The neighbour sums of the first layer's rows. -/
theorem V3_v31 (c : Dev nD) : V3 m ρ c main_v31 = agg128 (hidden1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) := by
  show StableHlo.after hostOps1 (W2 m ρ c) (Proc.devRef .tc main_v31) = _
  dsimp only [hostOps1]
  after_results
  rw [W2_arg1, W2_arg2, W2_v20]
  rfl

theorem V3_arg6 (c : Dev nD) : V3 m ρ c main_arg6 = m ((c : Thread nD τ).loc main_arg6) := by
  show StableHlo.after hostOps1 (W2 m ρ c) (Proc.devRef .tc main_arg6) = _
  dsimp only [hostOps1]
  after_results
  exact W2_arg6 m ρ c

theorem V3_arg7 (c : Dev nD) : V3 m ρ c main_arg7 = m ((c : Thread nD τ).loc main_arg7) := by
  show StableHlo.after hostOps1 (W2 m ρ c) (Proc.devRef .tc main_arg7) = _
  dsimp only [hostOps1]
  after_results
  exact W2_arg7 m ρ c

theorem V3_arg9 (c : Dev nD) : V3 m ρ c main_arg9 = m ((c : Thread nD τ).loc main_arg9) := by
  show StableHlo.after hostOps1 (W2 m ρ c) (Proc.devRef .tc main_arg9) = _
  dsimp only [hostOps1]
  after_results
  exact W2_arg9 m ρ c

/-- The second bias as one row. -/
theorem V3_v32 (c : Dev nD) : V3 m ρ c main_v32 = shapeCast S1x128 (m ((c : Thread nD τ).loc main_arg8)) shapeCasts_S128_S1x128 := by
  show StableHlo.after hostOps1 (W2 m ρ c) (Proc.devRef .tc main_v32) = _
  dsimp only [hostOps1]
  after_results
  rw [W2_arg8]
  rfl

/-- The read-out's bias as one row. -/
theorem V3_v33 (c : Dev nD) : V3 m ρ c main_v33 = shapeCast S1x2 (m ((c : Thread nD τ).loc main_arg10)) shapeCasts_S2_S1x2 := by
  show StableHlo.after hostOps1 (W2 m ρ c) (Proc.devRef .tc main_v33) = _
  dsimp only [hostOps1]
  after_results
  rw [W2_arg10]
  rfl

/-- The second pallas_call's result array ends holding `logits` of the arguments. -/
theorem layer1_V3 (c : Dev nD) : layer1 (V3 m ρ) c = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show layerArr (sageArr (V3 m ρ c main_v20) (V3 m ρ c main_v31) (V3 m ρ c main_v8) (V3 m ρ c main_arg6) (V3 m ρ c main_arg7)
      (unrow (V3 m ρ c main_v32))) (V3 m ρ c main_arg9) (unrow (V3 m ρ c main_v33)) = _
  rw [V3_v20, V3_v31, V3_v8, V3_arg6, V3_arg7, V3_v32, V3_arg9, V3_v33, unrow_cast, unrow_cast]
  rfl

/-- THE PROGRAM'S RESULT: the last boundary's contents at the result buffer are `logits` of the arguments. -/
theorem result_eq (c : Dev nD) : W4 m ρ c (Proc.devRef .tc main_v34) = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (W4_arr m ρ c 8).trans ((final1 (V3 m ρ) c).trans (layer1_V3 m ρ c))

end Cert.KernelIdeal.SageValue

end
-- ==== Proof.SageRefHost.lean ====
/-
  The reference's host operations are the kernel's, at the ideal values.

  The reference normalises the source indices, gathers rows by source, adds them up by destination, counts each node's
  incoming edges and raises the count to at least one with the same host operations, on the same operands, as the
  kernel's program: each of those stages of the reference's run is the function SageSpec names (`ref_src`, `ref_deg`,
  `ref_agg4`, `ref_agg128`), by unfolding.  The raised count is a maximum with one, so it is never zero
  (`degMax_ne_zero`), and the vector of ones is one everywhere (`onesN_apply`).
-/
import proofs.«118429_j11905649344801_2_alg».proof.Proof.Gen.ReferenceIdeal.Read
import proofs.«118429_j11905649344801_2_alg».proof.Proof.SageSpec

noncomputable section

namespace Cert.ReferenceIdeal.SageRef

open Idealize.ShloMosaic Idealize.ShloMosaic.TcCoe Idealize.SL.Sem
open Cert.ReferenceIdeal Cert.ReferenceIdeal.Gen Cert.ReferenceIdeal.Read
open Cert.KernelIdeal.SageValue (srcIdx dstIdx onesN degMax invCol agg4 agg128 hidden1 hidden2 logits)

/-! ## The raised count is one where it has to be, and never zero -/

/-- The larger of any entry and an entry equal to one is not zero. -/
theorem maximumf_one_ne_zero {s : Shape} (x one : FVec Ideal s .f32) (hone : ∀ i, one i = 1) (i : s.Idx) :
    maximumf x one i ≠ 0 := by
  show max (x i) (one i) ≠ 0
  rw [hone i]
  exact Cert.MeanScale.max_one_ne_zero (x i)

theorem onesN_apply (i : Cert.KernelIdeal.S100000.Idx) : onesN i = 1 :=
  (Cert.MeanScale.bcast_const_apply Cert.KernelIdeal.Gen.bcast_S_S100000 0x3F800000#32 i).trans Cert.MeanScale.ofBits_one

theorem degMax_ne_zero (dst : (⟨S1600000, .i32⟩ : BufTy).Contents (Elt Ideal)) (i : Cert.KernelIdeal.S100000.Idx) : degMax dst i ≠ 0 :=
  maximumf_one_ne_zero _ onesN onesN_apply i

/-! ## The shared host operations -/

theorem ref_src (x1 : (⟨S1600000, .i32⟩ : BufTy).Contents (Elt Ideal)) : val_main_v5 (F := Ideal) x1 = srcIdx x1 := by
  unfold val_main_v5 val_main_v4 val_main_v3 val_main_v2 val_main_c_0 val_main_v1 val_main_v0 val_main_c
  rfl

theorem ref_src' (x1 : (⟨S1600000, .i32⟩ : BufTy).Contents (Elt Ideal)) : val_main_v31 (F := Ideal) x1 = srcIdx x1 := by
  unfold val_main_v31 val_main_v30 val_main_v29 val_main_v28 val_main_c_5 val_main_v27 val_main_v26 val_main_c_4
  rfl

theorem ref_deg (x2 : (⟨S1600000, .i32⟩ : BufTy).Contents (Elt Ideal)) : val_main_v15 (F := Ideal) x2 = degMax x2 := by
  unfold val_main_v15 val_main_v14 val_main_cst_3 val_main_v13 val_main_v12 val_main_v11 val_main_cst_2 val_main_v10 val_main_cst_1
  rfl

theorem ref_deg' (x2 : (⟨S1600000, .i32⟩ : BufTy).Contents (Elt Ideal)) : val_main_v41 (F := Ideal) x2 = degMax x2 := by
  unfold val_main_v41 val_main_v40 val_main_cst_9 val_main_v39 val_main_v38 val_main_v37 val_main_cst_8 val_main_v36 val_main_cst_7
  rfl

theorem ref_agg4 (x0 : (⟨S100000x4, .f32⟩ : BufTy).Contents (Elt Ideal)) (x1 x2 : (⟨S1600000, .i32⟩ : BufTy).Contents (Elt Ideal)) :
    val_main_v9 (F := Ideal) x0 x1 x2 = agg4 x0 x1 x2 := by
  unfold val_main_v9 val_main_v8 val_main_v7 val_main_cst val_main_v6
  rw [ref_src]
  rfl

theorem ref_agg128 (x0 : (⟨S100000x4, .f32⟩ : BufTy).Contents (Elt Ideal)) (x1 x2 : (⟨S1600000, .i32⟩ : BufTy).Contents (Elt Ideal)) (x3 x4 : (⟨S4x128, .f32⟩ : BufTy).Contents (Elt Ideal)) (x5 : (⟨S128, .f32⟩ : BufTy).Contents (Elt Ideal)) :
    val_main_v35 (F := Ideal) x0 x1 x2 x3 x4 x5 = agg128 (val_main_v25 (F := Ideal) x0 x1 x2 x3 x4 x5) x1 x2 := by
  unfold val_main_v35 val_main_v34 val_main_v33 val_main_cst_6 val_main_v32
  rw [ref_src']
  rfl

end Cert.ReferenceIdeal.SageRef

end
-- ==== Proof.SageRefLayers.lean ====
/-
  The reference program computes the same function of the eleven arguments, at the ideal values.

  The reference's run ends with its result at one composed term of the arguments, read here one operation at a time.
  Each of its two layers adds two `dot_general`s — the second over the neighbour sums DIVIDED by the raised count
  broadcast along the rows — and the bias, and rectifies: LibSageLayer's `hsage`, the layer at the column of
  reciprocals, because a count raised to at least one is never zero and  x · (1 / y) = x / y  for every extended real x
  and every y ≠ 0.  Its read-out is a `dot_general` plus the bias broadcast over the rows: LibPlainDot's `hlayer`.  So
  the reference's result is `logits` of its arguments.
-/
import proofs.«118429_j11905649344801_2_alg».proof.Proof.SageRefHost

noncomputable section

namespace Cert.ReferenceIdeal.SageRef

open Idealize.ShloMosaic Idealize.ShloMosaic.TcCoe Idealize.SL.Sem
open Cert.ReferenceIdeal Cert.ReferenceIdeal.Gen Cert.ReferenceIdeal.Read
open Cert.KernelIdeal.SageValue (srcIdx dstIdx onesN degMax invCol agg4 agg128 hidden1 hidden2 logits)

/-! ## The printed dimension records are the plain matrix-product record -/

theorem dot_4_128 : dot_S100000x4_S4x128_S100000x128_1_0_0_1_n_n = DotDims.plain 100000 4 128 := rfl
theorem dot_128_128 : dot_S100000x128_S128x128_S100000x128_1_0_0_1_n_n = DotDims.plain 100000 128 128 := rfl
theorem dot_128_2 : dot_S100000x128_S128x2_S100000x2_1_0_0_1_n_n = DotDims.plain 100000 128 2 := rfl

/-! ## The layers and the read-out -/

/-- The reference's first rectified layer. -/
theorem ref_h1 (x0 : (⟨S100000x4, .f32⟩ : BufTy).Contents (Elt Ideal)) (x1 x2 : (⟨S1600000, .i32⟩ : BufTy).Contents (Elt Ideal)) (x3 x4 : (⟨S4x128, .f32⟩ : BufTy).Contents (Elt Ideal)) (x5 : (⟨S128, .f32⟩ : BufTy).Contents (Elt Ideal)) :
    val_main_v25 (F := Ideal) x0 x1 x2 x3 x4 x5 = hidden1 x0 x1 x2 x3 x4 x5 := by
  unfold val_main_v25 val_main_call0_v0 val_main_call0_cst val_main_v24 val_main_v23 val_main_v22 val_main_v21 val_main_v20
    val_main_v19 val_main_v18 val_main_v17 val_main_v16
  rw [ref_agg4, ref_deg, dot_4_128]
  exact Cert.SageLayer.hsage x0 (agg4 x0 x1 x2) onesN (degMax x2) x3 x4 x5 bcast_S100000_S100000x1_0
    bcast_S100000x1_S100000x4_0_1 Cert.KernelIdeal.Gen.shapeCasts_S100000_S100000x1 bcast_S128_S1x128_1
    bcast_S1x128_S100000x128_0_1 bcast_S_S100000x128 onesN_apply (degMax_ne_zero x2)

/-- The reference's second rectified layer. -/
theorem ref_h2 (x0 : (⟨S100000x4, .f32⟩ : BufTy).Contents (Elt Ideal)) (x1 x2 : (⟨S1600000, .i32⟩ : BufTy).Contents (Elt Ideal)) (x3 x4 : (⟨S4x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) :
    val_main_v51 (F := Ideal) x0 x1 x2 x3 x4 x5 x6 x7 x8 = hidden2 x0 x1 x2 x3 x4 x5 x6 x7 x8 := by
  unfold val_main_v51 val_main_call1_v0 val_main_call1_cst val_main_v50 val_main_v49 val_main_v48 val_main_v47 val_main_v46
    val_main_v45 val_main_v44 val_main_v43 val_main_v42
  rw [ref_agg128, ref_deg', ref_h1, dot_128_128]
  exact Cert.SageLayer.hsage (hidden1 x0 x1 x2 x3 x4 x5) (agg128 (hidden1 x0 x1 x2 x3 x4 x5) x1 x2) onesN (degMax x2) x6 x7 x8
    bcast_S100000_S100000x1_0 bcast_S100000x1_S100000x128_0_1 Cert.KernelIdeal.Gen.shapeCasts_S100000_S100000x1
    bcast_S128_S1x128_1 bcast_S1x128_S100000x128_0_1 bcast_S_S100000x128 onesN_apply (degMax_ne_zero x2)

/-- The reference's result. -/
theorem ref_out (x0 : (⟨S100000x4, .f32⟩ : BufTy).Contents (Elt Ideal)) (x1 x2 : (⟨S1600000, .i32⟩ : BufTy).Contents (Elt Ideal)) (x3 x4 : (⟨S4x128, .f32⟩ : BufTy).Contents (Elt Ideal)) (x5 : (⟨S128, .f32⟩ : BufTy).Contents (Elt Ideal)) (x6 x7 : (⟨S128x128, .f32⟩ : BufTy).Contents (Elt Ideal)) (x8 : (⟨S128, .f32⟩ : BufTy).Contents (Elt Ideal)) (x9 : (⟨S128x2, .f32⟩ : BufTy).Contents (Elt Ideal)) (x10 : (⟨S2, .f32⟩ : BufTy).Contents (Elt Ideal)) :
    val_main_v55 (F := Ideal) x0 x1 x2 x3 x4 x5 x6 x7 x8 x9 x10 = logits x0 x1 x2 x3 x4 x5 x6 x7 x8 x9 x10 := by
  unfold val_main_v55 val_main_v54 val_main_v53 val_main_v52
  rw [ref_h2, dot_128_2]
  exact Cert.PlainDot.hlayer 100000 128 2 none (hidden2 x0 x1 x2 x3 x4 x5 x6 x7 x8) x9 x10 bcast_S2_S1x2_1 bcast_S1x2_S100000x2_0_1

/-- THE REFERENCE'S RESULT: the run's composed term is `logits` of the arguments. -/
theorem result_eq (m : (ℓ : Loc nD τ sig) → Buf (Elt Ideal) ℓ) (c : Dev nD) :
    Cert.ReferenceIdeal.Value.res_main_v55 m c
      = logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (val_main_v55_eq m c).trans (ref_out _ _ _ _ _ _ _ _ _ _ _)

end Cert.ReferenceIdeal.SageRef

end
-- ==== Proof.lean ====
/- The proof of `Cert.Claim` (proofs.«118429_j11905649344801_2_alg».proof.Defs).

   The kernel is a two-layer graph network with a mean over neighbours and a linear read-out, over 100000 nodes and
   1600000 edges.  With `deg v` the number of edges into node `v` and `D v = max (deg v, 1)`, both programs compute
       h₁ = max (feats · ws₁ + mean₁ · wn₁ + b₁, 0),   h₂ = max (h₁ · ws₂ + mean₂ · wn₂ + b₂, 0),   h₂ · w_out + b_out,
   where `meanₖ v` is the sum of the previous layer's rows over the edges into `v`, divided by `D v`.  The reference
   divides every entry by `D v`; the kernel takes `1 / D v` once per node on the host and multiplies by it inside its two
   pallas_calls, each of which handles the nodes in 25 blocks of 4000 rows, every output row depending on the same row of
   its tall operands only.  At the ideal values a change of float format is the identity and  x · (1 / y) = x / y  for
   every extended real x and every y ≠ 0 (a count raised to at least one is never zero), so the two results are the
   same function `logits` of the arguments; nothing has to be finite, and the precondition is not used.

   Modules: LibMeanScale (the law and the column layouts), LibSageLayer over LibPairLayer (the layer as a whole-array
   function, row-local, in the vector unit's and the host's spelling), SagePayload (what each body stores),
   SageRegion0 / SageRegion1 (from 25 blocks to the whole array), SageRun (the program's run with its result buffer
   named), SageHost (what each pallas_call finds, and the result), SageSpec (`logits`), SageRefHost and
   SageRefLayers (the reference is `logits`).  The three frames are the generated ones; the ideal pass rewrote nothing, so `preserves` is `True`. -/
import proofs.«118429_j11905649344801_2_alg».proof.Defs
import proofs.«118429_j11905649344801_2_alg».proof.Proof.Gen.Kernel
import proofs.«118429_j11905649344801_2_alg».proof.Proof.Gen.Kernel.Skeleton
import proofs.«118429_j11905649344801_2_alg».proof.Proof.Gen.Kernel.Launch
import proofs.«118429_j11905649344801_2_alg».proof.Proof.Gen.Kernel.Points
import proofs.«118429_j11905649344801_2_alg».proof.Proof.Gen.Kernel.Frame
import proofs.«118429_j11905649344801_2_alg».proof.Proof.Gen.KernelIdeal
import proofs.«118429_j11905649344801_2_alg».proof.Proof.Gen.KernelIdeal.Skeleton
import proofs.«118429_j11905649344801_2_alg».proof.Proof.Gen.KernelIdeal.Launch
import proofs.«118429_j11905649344801_2_alg».proof.Proof.Gen.KernelIdeal.Points
import proofs.«118429_j11905649344801_2_alg».proof.Proof.Gen.KernelIdeal.Frame
import proofs.«118429_j11905649344801_2_alg».proof.Proof.Gen.ReferenceIdeal
import proofs.«118429_j11905649344801_2_alg».proof.Proof.Gen.Pre_finite_inputs
import proofs.«118429_j11905649344801_2_alg».proof.Proof.Gen.ReferenceIdeal.Run
import proofs.«118429_j11905649344801_2_alg».proof.Proof.Gen.ReferenceIdeal.Read
import proofs.«118429_j11905649344801_2_alg».proof.Proof.SageRun
import proofs.«118429_j11905649344801_2_alg».proof.Proof.SageHost
import proofs.«118429_j11905649344801_2_alg».proof.Proof.SageRefLayers
import Idealize.ShloMosaic.Adequacy
import Idealize.ShloMosaic.Init

noncomputable section

namespace Cert.Proof

open Idealize.ShloMosaic Idealize.SL.Sem

/-- The kernel's program as printed runs and leaves its arguments unchanged. -/
theorem frame_k : Cert.frame_Kernel := fun m ρ _ => Cert.Kernel.Gen.frame m ρ

/-- So does its reading at the ideal values. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with `logits` of the arguments in their result buffers. -/
theorem algebraic : Cert.algebraic_KernelIdeal_ReferenceIdeal := by
  intro m ρ m' ρ' _ hagree
  refine ⟨fun c => Cert.KernelIdeal.SageValue.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.KernelIdeal.SageValue.result_eq m ρ c), (h c).2⟩)
      (Cert.KernelIdeal.SageValue.run_fold (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.SageRef.result_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
